-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S4x2 : Shape := ⟨2, ![4, 2]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S4x2 : S_.BroadcastsInDim S4x2 (![] : Fin 0 → Fin S4x2.rank)
  reducesTo_S4x2_S_d0_1 : S4x2.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_arg0 : IVec S16384x2048 32) (main_arg5 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S16384x2048 32 := broadcastInDim S16384x2048 ![] bcast_S_S16384x2048 main_c_8
  let main_v25 : IVec S16384x2048 1 := cmpi .sge main_arg0 main_v24
  let main_c_9 : IVec S_ 1 := constantI S_ 1 1#1
  let main_v26 : IVec S_ 1 := (fun x v => Host.reduce IntOp.andi x v reducesTo_S16384x2048_S_d0_1 h_S_) main_v25 main_c_9
  let main_v27 : IVec S_ 1 := andi main_v23 main_v26
  let main_c_10 : IVec S_ 32 := constantI S_ 32 3#32
  let main_v28 : IVec S16384x2048 32 := broadcastInDim S16384x2048 ![] bcast_S_S16384x2048 main_c_10
  let main_v29 : IVec S16384x2048 1 := cmpi .sle main_arg0 main_v28
  let main_c_11 : IVec S_ 1 := constantI S_ 1 1#1
  let main_v30 : IVec S_ 1 := (fun x v => Host.reduce IntOp.andi x v reducesTo_S16384x2048_S_d0_1 h_S_) main_v29 main_c_11
  let main_v31 : IVec S_ 1 := andi main_v27 main_v30
  main_v31

def fn {F : FTy → Type} [FloatOps F] (main_arg0 : IVec S16384x2048 32) (main_arg1 : FVec F S4x2 .f32) (main_arg2 : FVec F S4096x1024 .f32) (main_arg3 : FVec F S1024 .f32) (main_arg4 : FVec F S1024x64 .f32) (main_arg5 : FVec F S64 .f32) : IVec S_ 1 :=
  let main_v0 : FVec F S4x2 .f32 := Host.absf main_arg1
  let main_cst : FVec F S_ .f32 := constant S_ .f32 0x7F800000#32
  let main_v1 : FVec F S4x2 .f32 := broadcastInDim S4x2 ![] bcast_S_S4x2 main_cst
  let main_v2 : IVec S4x2 1 := cmpf .olt main_v0 main_v1
  let main_c : IVec S_ 1 := constantI S_ 1 1#1
  let main_v3 : IVec S_ 1 := (fun x v => Host.reduce IntOp.andi x v reducesTo_S4x2_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x64 .f32 := Host.absf main_arg4
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg0 main_arg5 main_v13 main_v16
-- ==== Kernel.lean ====
abbrev S16384x2048 : Shape := ⟨2, ![16384, 2048]⟩
abbrev S4x2 : Shape := ⟨2, ![4, 2]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S4x4 : Shape := ⟨2, ![4, 4]⟩
abbrev S_ : Shape := ⟨0, ![]⟩
abbrev S2048x2x1024 : Shape := ⟨3, ![2048, 2, 1024]⟩
abbrev S2048x1x1024 : Shape := ⟨3, ![2048, 1, 1024]⟩
abbrev S2048x1024 : Shape := ⟨2, ![2048, 1024]⟩
abbrev S1x1 : Shape := ⟨2, ![1, 1]⟩
abbrev S1x1024 : Shape := ⟨2, ![1, 1024]⟩
abbrev S1x64 : Shape := ⟨2, ![1, 64]⟩
abbrev S16384x64 : Shape := ⟨2, ![16384, 64]⟩
abbrev S512x2048 : Shape := ⟨2, ![512, 2048]⟩
abbrev S512x64 : Shape := ⟨2, ![512, 64]⟩
abbrev S512x1024 : Shape := ⟨2, ![512, 1024]⟩

abbrev nBuf : Space → Nat
  | .hbm => 63
  | .vmem => 10
  | .smem => 0
  | _ => 0

abbrev bufTy : (tb : Table) → Fin (tcTables nBuf tb) → BufTy
  | .hbm, ⟨0, _⟩ => ⟨S16384x2048, .i32⟩
  | .hbm, ⟨1, _⟩ => ⟨S4x2, .f32⟩
  | .hbm, ⟨2, _⟩ => ⟨S4096x1024, .f32⟩
  | .hbm, ⟨3, _⟩ => ⟨S1024, .f32⟩
  | .hbm, ⟨4, _⟩ => ⟨S1024x64, .f32⟩
  | .hbm, ⟨5, _⟩ => ⟨S64, .f32⟩
  | .hbm, ⟨6, _⟩ => ⟨S4x4, .f32⟩
  | .hbm, ⟨7, _⟩ => ⟨S_, .f32⟩
  | .hbm, ⟨8, _⟩ => ⟨S4x4, .f32⟩
  | .hbm, ⟨9, _⟩ => ⟨S4x4, .f32⟩
  | .hbm, ⟨10, _⟩ => ⟨S4x2, .f32⟩
  | .hbm, ⟨11, _⟩ => ⟨S2048x2x1024, .f32⟩
  | .hbm, ⟨12, _⟩ => ⟨S2048x1x1024, .f32⟩
  | .hbm, ⟨13, _⟩ => ⟨S2048x1024, .f32⟩
  | .hbm, ⟨14, _⟩ => ⟨S2048x1x1024, .f32⟩
  | .hbm, ⟨15, _⟩ => ⟨S2048x1024, .f32⟩
  | .hbm, ⟨16, _⟩ => ⟨S1x1, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S1x1, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | .hbm, ⟨26, _⟩ => ⟨S1x1, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S1x1, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | .hbm, ⟨36, _⟩ => ⟨S1x1, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S1x1, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | .hbm, ⟨46, _⟩ => ⟨S1x1, .f32⟩
  | .hbm, ⟨47, _⟩ => ⟨S_, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1x1, .f32⟩
  | .hbm, ⟨54, _⟩ => ⟨S_, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S1x64, .f32⟩
  | .hbm, ⟨62, _⟩ => ⟨S16384x64, .f32⟩
  | .local _ .vmem, ⟨0, _⟩ => ⟨S512x2048, .i32⟩
  | .local _ .vmem, ⟨1, _⟩ => ⟨S512x2048, .i32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1024x64, .f32⟩
  | .local _ .vmem, ⟨7, _⟩ => ⟨S1x64, .f32⟩
  | .local _ .vmem, ⟨8, _⟩ => ⟨S512x64, .f32⟩
  | .local _ .vmem, ⟨9, _⟩ => ⟨S512x64, .f32⟩
  | _, _ => ⟨S16384x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4x4 : S_.BroadcastsInDim S4x4 (![] : Fin 0 → Fin S4x4.rank)
  shapeCasts_S4096x1024_S2048x2x1024 : S4096x1024.ShapeCasts S2048x2x1024
  slices_S2048x2x1024_S2048x1x1024_0_0_0 : S2048x2x1024.Slices ![0, 0, 0] S2048x1x1024
  shapeCasts_S2048x1x1024_S2048x1024 : S2048x1x1024.ShapeCasts S2048x1024
  slices_S2048x2x1024_S2048x1x1024_0_1_0 : S2048x2x1024.Slices ![0, 1, 0] S2048x1x1024
  slices_S4x2_S1x1_1_0 : S4x2.Slices ![1, 0] S1x1
  shapeCasts_S1x1_S_ : S1x1.ShapeCasts S_
  bcast_S_S2048x1024 : S_.BroadcastsInDim S2048x1024 (![] : Fin 0 → Fin S2048x1024.rank)
  slices_S4x2_S1x1_1_1 : S4x2.Slices ![1, 1] S1x1
  bitsLt_bf16_f32 : FTy.bits .bf16 < FTy.bits .f32
  slices_S4x2_S1x1_2_0 : S4x2.Slices ![2, 0] S1x1
  slices_S4x2_S1x1_2_1 : S4x2.Slices ![2, 1] S1x1
  slices_S4x2_S1x1_3_0 : S4x2.Slices ![3, 0] S1x1
  slices_S4x2_S1x1_3_1 : S4x2.Slices ![3, 1] S1x1
  slices_S4x2_S1x1_0_0 : S4x2.Slices ![0, 0] S1x1
  reducesTo_S2048x1024_S1024_d0 : S2048x1024.ReducesTo [0] S1024
  h_S_ : 0 < S_.numel
  bcast_S_S1024 : S_.BroadcastsInDim S1024 (![] : Fin 0 → Fin S1024.rank)
  slices_S4x2_S1x1_0_1 : S4x2.Slices ![0, 1] S1x1
  shapeCasts_S1024_S1x1024 : S1024.ShapeCasts S1x1024
  shapeCasts_S64_S1x64 : S64.ShapeCasts S1x64
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S4x4_S4x2_S4x2_1_0_0_1_n_n_wf : DotDims.WF S4x4 S4x2 S4x2 [1] [0] [0] [1] [] []
  dot_S512x2048_S2048x1024_S512x1024_1_0_0_1_n_n_wf : DotDims.WF S512x2048 S2048x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .i32 = 32 ∨ (Rect.block (s := S16384x2048) S512x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S16384x64.size a
  hwx0_7 : ∀ i : grid0.Coords, EltTy.bits .f32 = 32 ∨ (Rect.block (s := S16384x64) S512x64.size (cc0_transform_7 i) (hinb0_7 i)).WholeWords (EltTy.packing .f32)

variable [Facts₀]

def dot_S4x4_S4x2_S4x2_1_0_0_1_n_n : DotDims S4x4 S4x2 S4x2 where
  lhsContracting := [1]
  rhsContracting := [0]
  lhsNonContracting := [0]
  rhsNonContracting := [1]
  lhsBatch := []
  rhsBatch := []
  wf := dot_S4x4_S4x2_S4x2_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S4x2 : Shape := ⟨2, ![4, 2]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S_ : Shape := ⟨0, ![]⟩
abbrev S16384x2048x1 : Shape := ⟨3, ![16384, 2048, 1]⟩
abbrev S1 : Shape := ⟨1, ![1]⟩
abbrev S1x1x1 : Shape := ⟨3, ![1, 1, 1]⟩
abbrev S16384x2048x2 : Shape := ⟨3, ![16384, 2048, 2]⟩
abbrev S16384x4096 : Shape := ⟨2, ![16384, 4096]⟩
abbrev S16384x1024 : Shape := ⟨2, ![16384, 1024]⟩
abbrev S1x1024 : Shape := ⟨2, ![1, 1024]⟩
abbrev S16384x64 : Shape := ⟨2, ![16384, 64]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .i32⟩
  | .hbm, ⟨1, _⟩ => ⟨S4x2, .f32⟩
  | .hbm, ⟨2, _⟩ => ⟨S4096x1024, .f32⟩
  | .hbm, ⟨3, _⟩ => ⟨S1024, .f32⟩
  | .hbm, ⟨4, _⟩ => ⟨S1024x64, .f32⟩
  | .hbm, ⟨5, _⟩ => ⟨S64, .f32⟩
  | .hbm, ⟨6, _⟩ => ⟨S_, .i32⟩
  | .hbm, ⟨7, _⟩ => ⟨S16384x2048, .i32⟩
  | .hbm, ⟨8, _⟩ => ⟨S16384x2048, .i1⟩
  | .hbm, ⟨9, _⟩ => ⟨S_, .i32⟩
  | .hbm, ⟨10, _⟩ => ⟨S16384x2048, .i32⟩
  | .hbm, ⟨11, _⟩ => ⟨S16384x2048, .i32⟩
  | .hbm, ⟨12, _⟩ => ⟨S16384x2048, .i32⟩
  | .hbm, ⟨13, _⟩ => ⟨S16384x2048x1, .i32⟩
  | .hbm, ⟨14, _⟩ => ⟨S1, .i32⟩
  | .hbm, ⟨15, _⟩ => ⟨S_, .i32⟩
  | .hbm, ⟨16, _⟩ => ⟨S16384x2048x1, .i32⟩
  | .hbm, ⟨17, _⟩ => ⟨S16384x2048x1, .i1⟩
  | .hbm, ⟨18, _⟩ => ⟨S1x1x1, .i32⟩
  | .hbm, ⟨19, _⟩ => ⟨S16384x2048x1, .i32⟩
  | .hbm, ⟨20, _⟩ => ⟨S16384x2048x1, .i1⟩
  | .hbm, ⟨21, _⟩ => ⟨S16384x2048x1, .i1⟩
  | .hbm, ⟨22, _⟩ => ⟨S_, .i1⟩
  | .hbm, ⟨23, _⟩ => ⟨S16384x2048, .i1⟩
  | .hbm, ⟨24, _⟩ => ⟨S16384x2048x2, .f32⟩
  | .hbm, ⟨25, _⟩ => ⟨S16384x2048x2, .i1⟩
  | .hbm, ⟨26, _⟩ => ⟨S_, .f32⟩
  | .hbm, ⟨27, _⟩ => ⟨S16384x2048x2, .f32⟩
  | .hbm, ⟨28, _⟩ => ⟨S16384x2048x2, .f32⟩
  | .hbm, ⟨29, _⟩ => ⟨S16384x4096, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x64, .f32⟩
  | .hbm, ⟨38, _⟩ => ⟨S1x64, .f32⟩
  | .hbm, ⟨39, _⟩ => ⟨S16384x64, .f32⟩
  | .hbm, ⟨40, _⟩ => ⟨S16384x64, .f32⟩
  | _, _ => ⟨S16384x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S16384x2048_S16384x2048x1_0_1 : S16384x2048.BroadcastsInDim S16384x2048x1 (![0, 1] : Fin 2 → Fin S16384x2048x1.rank)
  bcast_S_S16384x2048x1 : S_.BroadcastsInDim S16384x2048x1 (![] : Fin 0 → Fin S16384x2048x1.rank)
  bcast_S1_S1x1x1_2 : S1.BroadcastsInDim S1x1x1 (![2] : Fin 1 → Fin S1x1x1.rank)
  bcast_S1x1x1_S16384x2048x1_0_1_2 : S1x1x1.BroadcastsInDim S16384x2048x1 (![0, 1, 2] : Fin 3 → Fin S16384x2048x1.rank)
  reducesTo_S16384x2048x1_S16384x2048_d2 : S16384x2048x1.ReducesTo [2] S16384x2048
  h_S_ : 0 < S_.numel
  bcast_S16384x2048_S16384x2048x2_0_1 : S16384x2048.BroadcastsInDim S16384x2048x2 (![0, 1] : Fin 2 → Fin S16384x2048x2.rank)
  bcast_S_S16384x2048x2 : S_.BroadcastsInDim S16384x2048x2 (![] : Fin 0 → Fin S16384x2048x2.rank)
  shapeCasts_S16384x2048x2_S16384x4096 : S16384x2048x2.ShapeCasts S16384x4096
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  gather_S4x2_S16384x2048x1_S16384x2048x2_2_0_n_n_0_2_12_wf : GatherDims.WF S4x2 S16384x2048x1 S16384x2048x2 [2] [0] [] [0] [] 2 ![1, 2]
  dot_S16384x4096_S4096x1024_S16384x1024_1_0_0_1_n_n_wf : DotDims.WF S16384x4096 S4096x1024 S16384x1024 [1] [0] [0] [1] [] []
  dot_S16384x1024_S1024x64_S16384x64_1_0_0_1_n_n_wf : DotDims.WF S16384x1024 S1024x64 S16384x64 [1] [0] [0] [1] [] []

variable [Facts₀]

def gather_S4x2_S16384x2048x1_S16384x2048x2_2_0_n_n_0_2_12 : GatherDims S4x2 S16384x2048x1 S16384x2048x2 where
  offsetDims := [2]
  collapsedSliceDims := [0]
  operandBatchingDims := []
  startIndicesBatchingDims := []
  startIndexMap := [0]
  indexVectorDim := 2
  sliceSizes := ![1, 2]
  wf := gather_S4x2_S16384x2048x1_S16384x2048x2_2_0_n_n_0_2_12_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf
def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf

class Facts : Prop extends Facts₀ where

variable [Facts]
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.KernelBlock.lean ====
/-
  What one grid point of the kernel computes, entry by entry, over the extended reals.

  A block is 512 rows of the index array. Each word `v` of a row is turned into the node `v - 3/2`; the row of nodes,
  the row of their squares and the row of their cubes are each contracted with a premixed weight matrix
  (2048 x 1024), the three products are added, a one-row bias is added, and the rectifier `max · 0` is applied: that is
  the hidden row. The hidden row is then contracted with the second weight matrix (1024 x 64) and a second one-row bias
  is added. Every matrix product runs into a zero accumulator, so at the ideal values it is the plain finite sum of
  products; the format changes in between are the identity.
-/
import proofs.«140908_g53369263620405_cont_9to1c4b_809_13_alg».proof.Proof.Gen.KernelIdeal.Skeleton
import proofs.«140908_g53369263620405_cont_9to1c4b_809_13_alg».proof.Proof.LibColumnBlocks
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The node a word stands for: the word, read as a signed integer, minus the constant the kernel subtracts (3/2). -/
def node (v : BitVec 32) : EReal := ((v.toInt : ℝ) : EReal) - Ideal.ofBits .bf16 0x3FC0#16

/-- One entry of the hidden layer before the rectifier: the nodes, their squares and their cubes of one row of words,
    each contracted with one column of its premixed weights, the three sums added in the kernel's order, then the bias. -/
def preact (xrow : Fin 2048 → BitVec 32) (K1 K2 K3 : Fin 2048 → EReal) (bp : EReal) : EReal :=
  ((∑ s, node (xrow s) * K1 s + ∑ s, (node (xrow s) * node (xrow s)) * K2 s)
      + ∑ s, ((node (xrow s) * node (xrow s)) * node (xrow s)) * K3 s) + bp

/-- One entry of the block's result. -/
def blockOut (x0 : S512x2048.Idx → BitVec 32) (x1 x2 x3 : S2048x1024.Idx → EReal) (x4 : S1x1024.Idx → EReal)
    (x5 : S1024x64.Idx → EReal) (x6 : S1x64.Idx → EReal) (r : Fin 512) (o : Fin 64) : EReal :=
  (∑ j : Fin 1024, max (preact (fun s => x0 (ix2 r s)) (fun s => x1 (ix2 s j)) (fun s => x2 (ix2 s j))
      (fun s => x3 (ix2 s j)) (x4 (ix2 (0 : Fin 1) j))) 0 * x5 (ix2 j o)) + x6 (ix2 (0 : Fin 1) o)

section Tile

variable (w1 w2 w3 : FVec Ideal S512x2048 .bf16) (k1 k2 k3 : FVec Ideal S2048x1024 .bf16)
  (bp : FVec Ideal S1x1024 .f32) (r : Fin 512) (j : Fin 1024)

/-- Three products into zero accumulators, added, the bias row stretched down the rows, the rectifier: at (r, j). -/
theorem hidden_apply :
    maximumf (addf (addf (addf
        (matmul dot_S512x2048_S2048x1024_S512x1024_1_0_0_1_n_n none w1 k1 (constant S512x1024 .f32 0x00000000#32))
        (matmul dot_S512x2048_S2048x1024_S512x1024_1_0_0_1_n_n none w2 k2 (constant S512x1024 .f32 0x00000000#32)))
        (matmul dot_S512x2048_S2048x1024_S512x1024_1_0_0_1_n_n none w3 k3 (constant S512x1024 .f32 0x00000000#32)))
        (broadcastTo S512x1024 bp broadcasts_S1x1024_S512x1024))
      (broadcast S512x1024 (Scalar.ofBits .f32 0x00000000#32)) (ix2 r j)
    = max ((((∑ s : Fin 2048, w1 (ix2 r s) * k1 (ix2 s j)) + ∑ s : Fin 2048, w2 (ix2 r s) * k2 (ix2 s j))
        + ∑ s : Fin 2048, w3 (ix2 r s) * k3 (ix2 s j)) + bp (ix2 (0 : Fin 1) j)) 0 := by
  rw [maximumf_apply, addf_apply, addf_apply, addf_apply,
    LibColumnBlocks.matmul_zero_apply dot_S512x2048_S2048x1024_S512x1024_1_0_0_1_n_n rfl rfl rfl rfl (fun _ _ => rfl) (fun _ _ => rfl) w1 k1 r j none,
    LibColumnBlocks.matmul_zero_apply dot_S512x2048_S2048x1024_S512x1024_1_0_0_1_n_n rfl rfl rfl rfl (fun _ _ => rfl) (fun _ _ => rfl) w2 k2 r j none,
    LibColumnBlocks.matmul_zero_apply dot_S512x2048_S2048x1024_S512x1024_1_0_0_1_n_n rfl rfl rfl rfl (fun _ _ => rfl) (fun _ _ => rfl) w3 k3 r j none,
    broadcastTo_1b_ab_apply bp broadcasts_S1x1024_S512x1024 r j, broadcast_apply]
  show max _ (Ideal.ofBits .f32 0x00000000#32) = _
  rw [Ideal.ofBits_zero_f32]

end Tile

/-- The body's one stored value at row `r`, column `o` of the block. -/
theorem pay_apply (x0 : Vec Ideal S512x2048 .i32) (x1 x2 x3 : Vec Ideal S2048x1024 .bf16) (x4 : Vec Ideal S1x1024 .f32)
    (x5 : Vec Ideal S1024x64 .f32) (x6 : Vec Ideal S1x64 .f32) (r : Fin 512) (o : Fin 64) :
    k0_pay1 (F := Ideal) x0 x1 x2 x3 x4 x5 x6 (ix2 r o) = blockOut x0 x1 x2 x3 x4 x5 x6 r o := by
  unfold k0_pay1 blockOut
  simp only [shapeCast_self]
  rw [addf_apply,
    LibColumnBlocks.matmul_zero_apply dot_S512x1024_S1024x64_S512x64_1_0_0_1_n_n rfl rfl rfl rfl (fun _ _ => rfl) (fun _ _ => rfl) _ x5 r o none,
    broadcastTo_1b_ab_apply _ broadcasts_S1x64_S512x64 r o]
  refine congrArg (· + x6 (ix2 (0 : Fin 1) o)) (Finset.sum_congr rfl fun j _ => congrArg (· * x5 (ix2 j o)) ?_)
  rw [hidden_apply]
  rfl

end Cert.KernelIdeal.Block

end
-- ==== Proof.KernelArray.lean ====
/-
  From the kernel's blocks to its whole result array.

  The grid has 32 points; point `t` works on rows 512·t … 512·t + 511 of the index array and writes the same rows of
  the result; the six other operands are whole arrays, the same at every point. An entry of the result depends on one
  row of the index array only, so what point `t` writes is the restriction to its rows of ONE function of the whole
  arrays (`kernOut`), and the 32 blocks tile the result.
-/
import proofs.«140908_g53369263620405_cont_9to1c4b_809_13_alg».proof.Proof.Gen.KernelIdeal.Value
import proofs.«140908_g53369263620405_cont_9to1c4b_809_13_alg».proof.Proof.KernelBlock

noncomputable section

namespace Cert.KernelIdeal.ArrayValue

open Cert.KernelIdeal Cert.KernelIdeal.Gen Idealize.ShloMosaic Idealize.ShloMosaic.TcCoe Idealize.SL.Sem
  Idealize.ShloMosaic.ValueIdx
open Idealize.ShloMosaic.Pipeline (Dat)

/-- The result array as one function of the arrays the region is launched on. -/
def kernOut (x : S16384x2048.Idx → BitVec 32) (K1 K2 K3 : S2048x1024.Idx → EReal) (bp : S1x1024.Idx → EReal)
    (W2 : S1024x64.Idx → EReal) (b2r : S1x64.Idx → EReal) : S16384x64.Idx → EReal :=
  fun i => (∑ j : Fin 1024, max (Block.preact (fun s => x (ix2 (i 0) s)) (fun s => K1 (ix2 s j)) (fun s => K2 (ix2 s j))
      (fun s => K3 (ix2 s j)) (bp (ix2 (0 : Fin 1) j))) 0 * W2 (ix2 j (i 1))) + b2r (ix2 (0 : Fin 1) (i 1))

/-- A block's entry is the whole array's entry when the block holds the array's row and the other operands whole. -/
theorem blockOut_eq_kernOut (x : S16384x2048.Idx → BitVec 32) (K1 K2 K3 : S2048x1024.Idx → EReal)
    (bp : S1x1024.Idx → EReal) (W2 : S1024x64.Idx → EReal) (b2r : S1x64.Idx → EReal)
    (x0 : S512x2048.Idx → BitVec 32) (x1 x2 x3 : S2048x1024.Idx → EReal) (x4 : S1x1024.Idx → EReal)
    (x5 : S1024x64.Idx → EReal) (x6 : S1x64.Idx → EReal) (i : S16384x64.Idx) (r : Fin 512) (o : Fin 64)
    (h0 : ∀ s, x0 (ix2 r s) = x (ix2 (i 0) s)) (h1 : x1 = K1) (h2 : x2 = K2) (h3 : x3 = K3) (h4 : x4 = bp)
    (h5 : x5 = W2) (h6 : x6 = b2r) (ho : o = i 1) :
    Block.blockOut x0 x1 x2 x3 x4 x5 x6 r o = kernOut x K1 K2 K3 bp W2 b2r i := by
  subst h1 h2 h3 h4 h5 h6 ho
  unfold Block.blockOut kernOut
  simp only [h0]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 grid points: the index array and the result move together along the
    rows, every other window stays at its one block. -/
theorem idx_facts : ∀ t : Fin cfg0.N, win0_0.index t (0 : Fin 2) = win0_7.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

set_option maxHeartbeats 1000000 in
/-- WHAT POINT `t` WRITES BACK is block `t` of `kernOut` of the arrays as the region finds them. -/
theorem flushed_eq (c : Dev nD) (t : Fin cfg0.N) :
    (dats m 0 c).flushed 7 t = ((cfg0.win 7).blk t).view.read (Elt Ideal)
      (kernOut (V m c main_arg0) (V m c main_v17) (V m c main_v27) (V m c main_v37) (V m c main_v50) (V m c main_arg4)
        (V m c main_v51)) := by
  rw [Value.flushed7]
  unfold out0_7
  rw [View.canon_unit_zero hz]
  simp only [View.ld_unit_zero (S := S512x2048) hz, View.ld_unit_zero (S := S2048x1024) hz,
    View.ld_unit_zero (S := S1x1024) hz, View.ld_unit_zero (S := S1024x64) hz, View.ld_unit_zero (S := S1x64) hz]
  obtain ⟨e00, e01, e10, e11, e20, e21, e30, e31, e40, e41, e50, e51, e60, e61, e70, e71⟩ := idx_facts t
  funext y
  obtain ⟨r, o, rfl⟩ : ∃ (r : Fin 512) (o : Fin 64), y = ix2 r o := ⟨y 0, y 1, eq_ix2 y⟩
  refine (Block.pay_apply (iblk m c 0 t) (iblk m c 1 t) (iblk m c 2 t) (iblk m c 3 t) (iblk m c 4 t) (iblk m c 5 t)
    (iblk m c 6 t) r o).trans ?_
  refine blockOut_eq_kernOut (V m c main_arg0) (V m c main_v17) (V m c main_v27) (V m c main_v37) (V m c main_v50)
    (V m c main_arg4) (V m c main_v51) (iblk m c 0 t) (iblk m c 1 t) (iblk m c 2 t) (iblk m c 3 t) (iblk m c 4 t)
    (iblk m c 5 t) (iblk m c 6 t) (((cfg0.win 7).blk t).view.emb (ix2 r o)) r o ?_ ?_ ?_ ?_ ?_ ?_ ?_ ?_
  · intro s
    show V m c main_arg0 (((cfg0.win 0).blk t).view.emb (ix2 r s)) = V m c main_arg0 _
    refine congrArg (V m c main_arg0) (funext fun a => Fin.ext ?_)
    match a with
    | ⟨0, _⟩ =>
      show win0_0.index t (0 : Fin 2) * 512 + 1 * r.val = win0_7.index t (0 : Fin 2) * 512 + 1 * r.val
      omega
    | ⟨1, _⟩ =>
      show win0_0.index t (1 : Fin 2) * 2048 + 1 * s.val = s.val
      omega
  · funext y
    show V m c main_v17 (((cfg0.win 1).blk t).view.emb y) = V m c main_v17 y
    refine congrArg (V m c main_v17) (funext fun a => Fin.ext ?_)
    match a with
    | ⟨0, _⟩ => show win0_1.index t (0 : Fin 2) * 2048 + 1 * (y 0).val = (y 0).val; omega
    | ⟨1, _⟩ => show win0_1.index t (1 : Fin 2) * 1024 + 1 * (y 1).val = (y 1).val; omega
  · funext y
    show V m c main_v27 (((cfg0.win 2).blk t).view.emb y) = V m c main_v27 y
    refine congrArg (V m c main_v27) (funext fun a => Fin.ext ?_)
    match a with
    | ⟨0, _⟩ => show win0_2.index t (0 : Fin 2) * 2048 + 1 * (y 0).val = (y 0).val; omega
    | ⟨1, _⟩ => show win0_2.index t (1 : Fin 2) * 1024 + 1 * (y 1).val = (y 1).val; omega
  · funext y
    show V m c main_v37 (((cfg0.win 3).blk t).view.emb y) = V m c main_v37 y
    refine congrArg (V m c main_v37) (funext fun a => Fin.ext ?_)
    match a with
    | ⟨0, _⟩ => show win0_3.index t (0 : Fin 2) * 2048 + 1 * (y 0).val = (y 0).val; omega
    | ⟨1, _⟩ => show win0_3.index t (1 : Fin 2) * 1024 + 1 * (y 1).val = (y 1).val; omega
  · funext y
    show V m c main_v50 (((cfg0.win 4).blk t).view.emb y) = V m c main_v50 y
    refine congrArg (V m c main_v50) (funext fun a => Fin.ext ?_)
    match a with
    | ⟨0, _⟩ => show win0_4.index t (0 : Fin 2) * 1 + 1 * (y 0).val = (y 0).val; omega
    | ⟨1, _⟩ => show win0_4.index t (1 : Fin 2) * 1024 + 1 * (y 1).val = (y 1).val; omega
  · funext y
    show V m c main_arg4 (((cfg0.win 5).blk t).view.emb y) = V m c main_arg4 y
    refine congrArg (V m c main_arg4) (funext fun a => Fin.ext ?_)
    match a with
    | ⟨0, _⟩ => show win0_5.index t (0 : Fin 2) * 1024 + 1 * (y 0).val = (y 0).val; omega
    | ⟨1, _⟩ => show win0_5.index t (1 : Fin 2) * 64 + 1 * (y 1).val = (y 1).val; omega
  · funext y
    show V m c main_v51 (((cfg0.win 6).blk t).view.emb y) = V m c main_v51 y
    refine congrArg (V m c main_v51) (funext fun a => Fin.ext ?_)
    match a with
    | ⟨0, _⟩ => show win0_6.index t (0 : Fin 2) * 1 + 1 * (y 0).val = (y 0).val; omega
    | ⟨1, _⟩ => show win0_6.index t (1 : Fin 2) * 64 + 1 * (y 1).val = (y 1).val; omega
  · apply Fin.ext
    show o.val = win0_7.index t (1 : Fin 2) * 64 + 1 * o.val
    omega

/-- An index of the result is in point `t`'s block iff each coordinate is in the block's range on its axis. -/
theorem mem_blk (t : Fin cfg0.N) (i : S16384x64.Idx) :
    i ∈ ((cfg0.win 7).blk t).view.set ↔ ∀ a : Fin 2, win0_7.index t a * S512x64.size a ≤ (i a).val ∧ (i a).val < win0_7.index t a * S512x64.size a + S512x64.size a := by
  show i ∈ ((View.whole main_v52).slice (win0_7.rect t)).set ↔ _
  rw [View.set_slice_whole, Rect.mem_set_unit]
  exact Iff.rfl

/-- The 32 row blocks tile the result: row `r` is in the block of point `r / 512`. -/
theorem cover (i : S16384x64.Idx) : ∃ t : Fin cfg0.N, (cfg0.win 7).flush t = true ∧ i ∈ ((cfg0.win 7).blk t).view.set := by
  have hi0 : (i 0).val < 16384 := (i 0).isLt
  have hi1 : (i 1).val < 64 := (i 1).isLt
  let t : Fin cfg0.N := ⟨(i 0).val / 512, by rw [show cfg0.N = 32 from N_0]; omega⟩
  obtain ⟨e00, e01, e10, e11, e20, e21, e30, e31, e40, e41, e50, e51, e60, e61, e70, e71⟩ := idx_facts t
  have ht : t.val = (i 0).val / 512 := rfl
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 64 ≤ (i 1).val ∧ (i 1).val < win0_7.index t (1 : Fin 2) * 64 + 64; omega

/-- THE RESULT ARRAY after the run. -/
theorem final (c : Dev nD) : (dats m 0 c).arrAt 7 cfg0.N
    = kernOut (V m c main_arg0) (V m c main_v17) (V m c main_v27) (V m c main_v37) (V m c main_v50) (V m c main_arg4)
        (V m c main_v51) :=
  (dats m 0 c).arrAt_eq_of_cover 7 _ (fun t _ => flushed_eq m c t) cover

/-- The kernel's run, with the result array named as one function of the arrays the region finds. -/
theorem run : θ_run defs (onTc (τ := τ) (main (F := Ideal))) ⟨m, fun _ => 0, ρ⟩ fun r => ∀ c : Dev nD,
      r.2.mem ((c : Thread nD τ).loc main_v52)
        = kernOut (V m c main_arg0) (V m c main_v17) (V m c main_v27) (V m c main_v37) (V m c main_v50) (V m c main_arg4)
            (V m c main_v51)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.LibFoldedRows.lean ====
/-
  A three-axis array with its two leading axes folded into one, and a unit last axis stretched, read at coordinates.

  * An array [P,Q,R] recast as the matrix [N,R] with N = P·Q reads, at row `n = p·Q + q` and column `r`, the entry
    `(p, q, r)`; and a matrix [N,R] recast as [P,Q,R] reads, at `(p, q, r)`, its entry `(p·Q + q, r)`. Both are the
    same statement about row-major positions: `(p·Q + q)·R + r` on either side.
  * An array [P,Q,1] stretched along its last axis to [P,Q,R] reads, at `(p, q, r)`, its entry `(p, q, 0)`.
-/
import Idealize.ShloMosaic.Lib.ValueIdx
import Idealize.ShloMosaic.Lib.Pipeline.Value

namespace Cert.LibFoldedRows

open Idealize.ShloMosaic Idealize.ShloMosaic.ValueIdx

variable {α : Type}

/-- Folding the two leading axes: row `p·Q + q` of the matrix is row `(p, q)` of the array. -/
theorem fold_apply {P Q R N : ℕ} (x : (⟨3, ![P, Q, R]⟩ : Shape).Idx → α)
    (h : (⟨3, ![P, Q, R]⟩ : Shape).ShapeCasts ⟨2, ![N, R]⟩) (p : Fin P) (q : Fin Q) (r : Fin R) (n : Fin N)
    (hn : n.val = p.val * Q + q.val) :
    shapeCast ⟨2, ![N, R]⟩ x h (ix2 n r) = x (ix3 p q r) := by
  refine shapeCast_apply x h _ _ ?_
  rw [Shape.rowMajor_val_three, Shape.rowMajor_val_two]
  show (p.val * Q + q.val) * R + r.val = n.val * R + r.val
  rw [hn]

/-- Splitting the leading axis: entry `(p, q, r)` of the array is entry `(p·Q + q, r)` of the matrix. -/
theorem split_apply {P Q R N : ℕ} (y : (⟨2, ![N, R]⟩ : Shape).Idx → α)
    (h : (⟨2, ![N, R]⟩ : Shape).ShapeCasts ⟨3, ![P, Q, R]⟩) (p : Fin P) (q : Fin Q) (r : Fin R) (n : Fin N)
    (hn : n.val = p.val * Q + q.val) :
    shapeCast ⟨3, ![P, Q, R]⟩ y h (ix3 p q r) = y (ix2 n r) := by
  refine shapeCast_apply y h _ _ ?_
  rw [Shape.rowMajor_val_three, Shape.rowMajor_val_two]
  show n.val * R + r.val = (p.val * Q + q.val) * R + r.val
  rw [hn]

/-- A unit last axis stretched: entry `(p, q, r)` is the entry `(p, q, 0)` of the operand. -/
theorem stretch_last_apply {P Q R : ℕ} (x : (⟨3, ![P, Q, 1]⟩ : Shape).Idx → α)
    (h : (⟨3, ![P, Q, 1]⟩ : Shape).Broadcasts ⟨3, ![P, Q, R]⟩) (p : Fin P) (q : Fin Q) (r : Fin R) :
    broadcastTo ⟨3, ![P, Q, R]⟩ x h (ix3 p q r) = x (ix3 p q (0 : Fin 1)) := by
  refine broadcastTo_apply x h _ _ fun a => ?_
  match a with
  | ⟨0, _⟩ =>
    show p.val = if P = 1 then 0 else p.val
    split
    · have := p.isLt; omega
    · rfl
  | ⟨1, _⟩ =>
    show q.val = if Q = 1 then 0 else q.val
    split
    · have := q.isLt; omega
    · rfl
  | ⟨2, _⟩ =>
    show 0 = if (1 : ℕ) = 1 then 0 else r.val
    rw [if_pos rfl]

end Cert.LibFoldedRows
-- ==== Proof.Spec.lean ====
/-
  A two-layer perceptron over a looked-up embedding, as one function of its arguments.

  The index array `x` (16384 rows of 2048 words) names, word by word, a row of a table with four rows and two
  columns. Laying the two entries of each named row side by side turns a row of `x` into a row of 4096 numbers:
  column `i = 2·s + c` of the embedded matrix holds entry `c` of the table row that word `s` names. The hidden layer is
  `max (embedded · W1 + b1) 0`, the result `hidden · W2 + b2`. Everything is read over the extended reals, entry by entry.
-/
import Idealize.ShloMosaic.PureOps.Ideal
import Idealize.ShloMosaic.Lib.ValueIdx

noncomputable section

namespace Cert.TableMlp

open Idealize.ShloMosaic Idealize.ShloMosaic.ValueIdx

/-- The table row a word names: its value modulo four (for a word in 0..3, the word itself). -/
def rowOf (v : BitVec 32) : Fin 4 := ⟨v.toNat % 4, Nat.mod_lt _ (by decide)⟩

/-- Every word of the index array lies in 0..3, read as a signed integer. -/
def InRange (x : (⟨2, ![16384, 2048]⟩ : Shape).Idx → BitVec 32) : Prop :=
  ∀ i, 0 ≤ (x i).toInt ∧ (x i).toInt ≤ 3

/-- Neither infinity occurs among the entries. -/
def Finite {α : Type} (f : α → EReal) : Prop := ∀ i, f i ≠ ⊥ ∧ f i ≠ ⊤

/-- The word that column `i` of the embedded matrix comes from. -/
def half (i : Fin 4096) : Fin 2048 := ⟨i.val / 2, by omega⟩

/-- Which of the named row's two entries column `i` of the embedded matrix holds. -/
def parity (i : Fin 4096) : Fin 2 := ⟨i.val % 2, by omega⟩

/-- Entry (b, i) of the embedded matrix. -/
def embedded (x : (⟨2, ![16384, 2048]⟩ : Shape).Idx → BitVec 32) (T : (⟨2, ![4, 2]⟩ : Shape).Idx → EReal)
    (b : Fin 16384) (i : Fin 4096) : EReal :=
  T (ix2 (rowOf (x (ix2 b (half i)))) (parity i))

/-- Entry (b, k) of the hidden layer. -/
def hidden (x : (⟨2, ![16384, 2048]⟩ : Shape).Idx → BitVec 32) (T : (⟨2, ![4, 2]⟩ : Shape).Idx → EReal)
    (W1 : (⟨2, ![4096, 1024]⟩ : Shape).Idx → EReal) (b1 : (⟨1, ![1024]⟩ : Shape).Idx → EReal)
    (b : Fin 16384) (k : Fin 1024) : EReal :=
  max ((∑ i : Fin 4096, embedded x T b i * W1 (ix2 i k)) + b1 (ix1 k)) 0

/-- The result, as one array. -/
def out (x : (⟨2, ![16384, 2048]⟩ : Shape).Idx → BitVec 32) (T : (⟨2, ![4, 2]⟩ : Shape).Idx → EReal)
    (W1 : (⟨2, ![4096, 1024]⟩ : Shape).Idx → EReal) (b1 : (⟨1, ![1024]⟩ : Shape).Idx → EReal)
    (W2 : (⟨2, ![1024, 64]⟩ : Shape).Idx → EReal) (b2 : (⟨1, ![64]⟩ : Shape).Idx → EReal) :
    (⟨2, ![16384, 64]⟩ : Shape).Idx → EReal :=
  fun j => (∑ k : Fin 1024, hidden x T W1 b1 (j 0) k * W2 (ix2 k (j 1))) + b2 (ix1 (j 1))

/-- The numerators of the inverse of the Vandermonde matrix of the four nodes -3/2, -1/2, 1/2, 3/2 (row `k` belongs
    to the power `k`, column `v` to the node `v - 3/2`); the inverse itself is this matrix divided by 48. -/
def vander : Fin 4 → Fin 4 → ℝ :=
  ![![-3, 27, 27, -3], ![2, -54, 54, -2], ![12, -12, -12, 12], ![-8, 24, -24, 8]]

end Cert.TableMlp

end
-- ==== Proof.KernelHost.lean ====
/-
  The arrays the kernel's region is launched on, as functions of the program's arguments, read entry by entry.

  Before the region the program computes, on the host: the coefficient matrix `coeffs T` = (V / 48) · T (4 x 2), where V
  is a constant 4 x 4 matrix of integers and T the table; the even rows and the odd rows of the first weight matrix
  (`rowsOf`: the matrix [4096, 1024] recast as [2048, 2, 1024], one of the two middle positions kept); for each of the
  powers 1, 2, 3 the premixed weights `premix` = coefficient (power, 0) · even rows + coefficient (power, 1) · odd rows;
  and the bias row `biasRow` = (b1 + coefficient (0, 0) · column sums of the even rows) + coefficient (0, 1) · column
  sums of the odd rows. Each of these is read here at explicit coordinates, over the extended reals.
-/
import proofs.«140908_g53369263620405_cont_9to1c4b_809_13_alg».proof.Proof.Gen.KernelIdeal.Frame
import proofs.«140908_g53369263620405_cont_9to1c4b_809_13_alg».proof.Proof.LibColumnBlocks
import proofs.«140908_g53369263620405_cont_9to1c4b_809_13_alg».proof.Proof.LibFoldedRows
import proofs.«140908_g53369263620405_cont_9to1c4b_809_13_alg».proof.Proof.Spec
import Idealize.ShloMosaic.Lib.StableHlo.Run
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HostSide

open Cert.KernelIdeal Cert.KernelIdeal.Gen Idealize.ShloMosaic Idealize.ShloMosaic.ValueIdx Idealize.ShloMosaic.TcCoe
  Idealize.SL.Sem Idealize.ShloMosaic.StableHlo

/-! ## The host-side arrays as terms -/

/-- The constant integer matrix divided by 48, entry by entry. -/
def quot : S4x4.Idx → EReal :=
  Host.divf (F := Ideal) (φ := .f32) (fun i => FloatOps.ofBits .f32 (lit0 (S4x4.rowMajor i)))
    (broadcastInDim S4x4 ![] bcast_S_S4x4 (constant (F := Ideal) S_ .f32 0x42400000#32))

/-- The coefficient matrix: `quot` times the table. -/
def coeffs (T : S4x2.Idx → EReal) : S4x2.Idx → EReal :=
  Host.dotGeneral (F := Ideal) (φ₁ := .f32) (φ₂ := .f32) dot_S4x4_S4x2_S4x2_1_0_0_1_n_n none quot T

/-- One coefficient, cut out of the matrix as a scalar. -/
def coeffAt (off : Fin 2 → ℕ) (h : S4x2.Slices off S1x1) (T : S4x2.Idx → EReal) : S_.Idx → EReal :=
  fun i => shapeCast S_ (extractStridedSlice S1x1 off (coeffs T) h) shapeCasts_S1x1_S_ i

/-- The rows of the first weight matrix at one of the two positions of each pair. -/
def rowsOf (off : Fin 3 → ℕ) (h : S2048x2x1024.Slices off S2048x1x1024) (W1 : S4096x1024.Idx → EReal) :
    S2048x1024.Idx → EReal :=
  fun i => shapeCast S2048x1024 (extractStridedSlice S2048x1x1024 off
    (fun i => shapeCast S2048x2x1024 W1 shapeCasts_S4096x1024_S2048x2x1024 i) h) shapeCasts_S2048x1x1024_S2048x1024 i

/-- Premixed weights: one coefficient times the even rows plus another times the odd rows. -/
def premix (a0 a1 : S_.Idx → EReal) (We Wo : S2048x1024.Idx → EReal) : S2048x1024.Idx → EReal :=
  truncf (F := Ideal) (φ := .f32) .bf16
    (addf (mulf (broadcastInDim S2048x1024 ![] bcast_S_S2048x1024 a0) We)
      (mulf (broadcastInDim S2048x1024 ![] bcast_S_S2048x1024 a1) Wo)) bitsLt_bf16_f32

/-- The bias row: the bias plus the two coefficients of power zero times the column sums of the even and odd rows. -/
def biasRow (a0 a1 : S_.Idx → EReal) (We Wo : S2048x1024.Idx → EReal) (b1 : S1024.Idx → EReal) : S1x1024.Idx → EReal :=
  fun i => shapeCast S1x1024
    (addf (F := Ideal) (φ := .f32)
      (addf b1 (mulf (broadcastInDim S1024 ![] bcast_S_S1024 a0)
        (Host.reduceAdd We (constant (F := Ideal) S_ .f32 0x00000000#32) reducesTo_S2048x1024_S1024_d0 h_S_)))
      (mulf (broadcastInDim S1024 ![] bcast_S_S1024 a1)
        (Host.reduceAdd Wo (constant (F := Ideal) S_ .f32 0x00000000#32) reducesTo_S2048x1024_S1024_d0 h_S_)))
    shapeCasts_S1024_S1x1024 i

/-- The second bias as a one-row matrix. -/
def biasRow2 (b2 : S64.Idx → EReal) : S1x64.Idx → EReal := fun i => shapeCast S1x64 b2 shapeCasts_S64_S1x64 i

/-! ## What the region finds in each window's array -/

section Arrays

variable (m : (ℓ : Loc nD τ sig) → Buf (Elt Ideal) ℓ) (c : Dev nD)

/-- The premixed weights of a power, from the arguments. -/
def premixOf (o0 o1 : Fin 2 → ℕ) (h0 : S4x2.Slices o0 S1x1) (h1 : S4x2.Slices o1 S1x1) : S2048x1024.Idx → EReal :=
  premix (coeffAt o0 h0 (m ((c : Thread nD τ).loc main_arg1))) (coeffAt o1 h1 (m ((c : Thread nD τ).loc main_arg1)))
    (rowsOf ![0, 0, 0] slices_S2048x2x1024_S2048x1x1024_0_0_0 (m ((c : Thread nD τ).loc main_arg2)))
    (rowsOf ![0, 1, 0] slices_S2048x2x1024_S2048x1x1024_0_1_0 (m ((c : Thread nD τ).loc main_arg2)))

set_option maxRecDepth 65536 in
set_option maxHeartbeats 2000000 in
theorem V_v17 : (V m c main_v17 : S2048x1024.Idx → EReal) = premixOf m c ![1, 0] ![1, 1] slices_S4x2_S1x1_1_0 slices_S4x2_S1x1_1_1 := by
  dsimp only [Gen.V, Gen.hostOps0]
  after_results_simp
  rfl

set_option maxRecDepth 65536 in
set_option maxHeartbeats 2000000 in
theorem V_v27 : (V m c main_v27 : S2048x1024.Idx → EReal) = premixOf m c ![2, 0] ![2, 1] slices_S4x2_S1x1_2_0 slices_S4x2_S1x1_2_1 := by
  dsimp only [Gen.V, Gen.hostOps0]
  after_results_simp
  rfl

set_option maxRecDepth 65536 in
set_option maxHeartbeats 2000000 in
theorem V_v37 : (V m c main_v37 : S2048x1024.Idx → EReal) = premixOf m c ![3, 0] ![3, 1] slices_S4x2_S1x1_3_0 slices_S4x2_S1x1_3_1 := by
  dsimp only [Gen.V, Gen.hostOps0]
  after_results_simp
  rfl

set_option maxRecDepth 65536 in
set_option maxHeartbeats 2000000 in
theorem V_v50 : (V m c main_v50 : S1x1024.Idx → EReal)
    = biasRow (coeffAt ![0, 0] slices_S4x2_S1x1_0_0 (m ((c : Thread nD τ).loc main_arg1)))
        (coeffAt ![0, 1] slices_S4x2_S1x1_0_1 (m ((c : Thread nD τ).loc main_arg1)))
        (rowsOf ![0, 0, 0] slices_S2048x2x1024_S2048x1x1024_0_0_0 (m ((c : Thread nD τ).loc main_arg2)))
        (rowsOf ![0, 1, 0] slices_S2048x2x1024_S2048x1x1024_0_1_0 (m ((c : Thread nD τ).loc main_arg2)))
        (m ((c : Thread nD τ).loc main_arg3)) := by
  dsimp only [Gen.V, Gen.hostOps0]
  after_results_simp
  rfl

set_option maxRecDepth 65536 in
set_option maxHeartbeats 2000000 in
theorem V_v51 : (V m c main_v51 : S1x64.Idx → EReal) = biasRow2 (m ((c : Thread nD τ).loc main_arg5)) := by
  dsimp only [Gen.V, Gen.hostOps0]
  after_results_simp
  rfl

end Arrays

end Cert.KernelIdeal.HostSide

end
-- ==== Proof.KernelHostRead.lean ====
/-
  The host-side arrays read at coordinates.

  * `quot` at (k, v) is the integer V k v divided by 48, as the coercion of a real number: the sixteen bit patterns of
    the constant matrix and the pattern of 48 are evaluated once each.
  * `coeffs T` at (k, c) is the sum over v of `quot (k, v) · T (v, c)`; `coeffAt` cuts one of these out.
  * `rowsOf` at (s, j) is the first weight matrix at row 2·s (even rows) or 2·s + 1 (odd rows), column j.
  * `premix` at (s, j) is coefficient · even row + coefficient · odd row (the change of format is the identity).
  * `biasRow` at (0, j) is (b1 j + coefficient · (0 + column sum of the even rows)) + coefficient · (0 + column sum of
    the odd rows).
-/
import proofs.«140908_g53369263620405_cont_9to1c4b_809_13_alg».proof.Proof.KernelHost

noncomputable section

namespace Cert.KernelIdeal.HostSide

open Cert.KernelIdeal Cert.KernelIdeal.Gen Idealize.ShloMosaic Idealize.ShloMosaic.ValueIdx

/-! ## The constants -/

theorem bits_48 : Ideal.ofBits .f32 0x42400000#32 = ((48 : ℝ) : EReal) := by
  simp [Ideal.ofBits, Ideal.ieee, -EReal.coe_mul]; norm_num
theorem bits_neg3 : Ideal.ofBits .f32 0xC0400000#32 = ((-3 : ℝ) : EReal) := by
  simp [Ideal.ofBits, Ideal.ieee, -EReal.coe_mul, -EReal.coe_neg]; norm_num
theorem bits_27 : Ideal.ofBits .f32 0x41D80000#32 = ((27 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_neg54 : Ideal.ofBits .f32 0xC2580000#32 = ((-54 : ℝ) : EReal) := by
  simp [Ideal.ofBits, Ideal.ieee, -EReal.coe_mul, -EReal.coe_neg]; norm_num
theorem bits_54 : Ideal.ofBits .f32 0x42580000#32 = ((54 : ℝ) : EReal) := by
  simp [Ideal.ofBits, Ideal.ieee, -EReal.coe_mul]; norm_num
theorem bits_neg2 : Ideal.ofBits .f32 0xC0000000#32 = ((-2 : ℝ) : EReal) := by
  simp [Ideal.ofBits, Ideal.ieee, -EReal.coe_mul, -EReal.coe_neg]; norm_num
theorem bits_12 : Ideal.ofBits .f32 0x41400000#32 = ((12 : ℝ) : EReal) := by
  simp [Ideal.ofBits, Ideal.ieee, -EReal.coe_mul]; norm_num
theorem bits_neg12 : Ideal.ofBits .f32 0xC1400000#32 = ((-12 : ℝ) : EReal) := by
  simp [Ideal.ofBits, Ideal.ieee, -EReal.coe_mul, -EReal.coe_neg]; norm_num
theorem bits_neg8 : Ideal.ofBits .f32 0xC1000000#32 = ((-8 : ℝ) : EReal) := by
  simp [Ideal.ofBits, Ideal.ieee, -EReal.coe_mul, -EReal.coe_neg]; norm_num
theorem bits_24 : Ideal.ofBits .f32 0x41C00000#32 = ((24 : ℝ) : EReal) := by
  simp [Ideal.ofBits, Ideal.ieee, -EReal.coe_mul]; norm_num
theorem bits_neg24 : Ideal.ofBits .f32 0xC1C00000#32 = ((-24 : ℝ) : EReal) := by
  simp [Ideal.ofBits, Ideal.ieee, -EReal.coe_mul, -EReal.coe_neg]; norm_num
theorem bits_8 : Ideal.ofBits .f32 0x41000000#32 = ((8 : ℝ) : EReal) := by
  simp [Ideal.ofBits, Ideal.ieee, -EReal.coe_mul]; norm_num
/-- The constant the kernel subtracts from every word: three halves. -/
theorem bits_three_halves : Ideal.ofBits .bf16 0x3FC0#16 = ((3 / 2 : ℝ) : EReal) := by
  simp [Ideal.ofBits, Ideal.ieee, -EReal.coe_mul]; norm_num

/-! ## The quotient matrix -/

/-- An entry whose pattern denotes the real `r` is `r / 48`. -/
theorem quot_entry (k v : Fin 4) (w : BitVec 32) (r : ℝ) (hw : lit0 (S4x4.rowMajor (ix2 k v)) = w)
    (hr : Ideal.ofBits .f32 w = (r : EReal)) : quot (ix2 k v) = ((r / 48 : ℝ) : EReal) := by
  unfold quot
  rw [hostDivf_apply, broadcastInDim_scalar_apply, constant_apply, bits_48, Ideal.div_coe (by norm_num)]
  show Ideal.ofBits .f32 (lit0 (S4x4.rowMajor (ix2 k v))) * _ = _
  rw [hw, hr, ← EReal.coe_mul]
  congr 1
  ring

theorem quot_apply : ∀ k v : Fin 4, quot (ix2 k v) = ((Cert.TableMlp.vander k v / 48 : ℝ) : EReal)
  | 0, 0 => quot_entry 0 0 _ _ rfl bits_neg3
  | 0, 1 => quot_entry 0 1 _ _ rfl bits_27
  | 0, 2 => quot_entry 0 2 _ _ rfl bits_27
  | 0, 3 => quot_entry 0 3 _ _ rfl bits_neg3
  | 1, 0 => quot_entry 1 0 _ _ rfl bits_2
  | 1, 1 => quot_entry 1 1 _ _ rfl bits_neg54
  | 1, 2 => quot_entry 1 2 _ _ rfl bits_54
  | 1, 3 => quot_entry 1 3 _ _ rfl bits_neg2
  | 2, 0 => quot_entry 2 0 _ _ rfl bits_12
  | 2, 1 => quot_entry 2 1 _ _ rfl bits_neg12
  | 2, 2 => quot_entry 2 2 _ _ rfl bits_neg12
  | 2, 3 => quot_entry 2 3 _ _ rfl bits_12
  | 3, 0 => quot_entry 3 0 _ _ rfl bits_neg8
  | 3, 1 => quot_entry 3 1 _ _ rfl bits_24
  | 3, 2 => quot_entry 3 2 _ _ rfl bits_neg24
  | 3, 3 => quot_entry 3 3 _ _ rfl bits_8

/-! ## The coefficients -/

theorem coeffs_apply (T : S4x2.Idx → EReal) (k : Fin 4) (c : Fin 2) :
    coeffs T (ix2 k c) = ∑ v : Fin 4, quot (ix2 k v) * T (ix2 v c) :=
  LibColumnBlocks.hostDot_apply (φ₁ := .f32) (φ₂ := .f32) dot_S4x4_S4x2_S4x2_1_0_0_1_n_n rfl rfl rfl rfl (fun _ _ => rfl) (fun _ _ => rfl)
    quot T k c none

theorem coeffAt_apply (k c : ℕ) (hk : k < 4) (hc : c < 2) (h : S4x2.Slices ![k, c] S1x1) (T : S4x2.Idx → EReal) (i : S_.Idx) :
    coeffAt ![k, c] h T i = coeffs T (ix2 (⟨k, hk⟩ : Fin 4) (⟨c, hc⟩ : Fin 2)) := by
  unfold coeffAt
  rw [shapeCast_apply _ shapeCasts_S1x1_S_ i (ix2 (0 : Fin 1) (0 : Fin 1)) (by
    have h1 : (S_.rowMajor i).val < 1 := (S_.rowMajor i).isLt
    rw [Shape.rowMajor_val_two]
    show (0 : ℕ) * 1 + 0 = _
    omega)]
  refine extractStridedSlice_apply _ _ h _ (ix2 (⟨k, hk⟩ : Fin 4) (⟨c, hc⟩ : Fin 2)) fun a => ?_
  match a with
  | ⟨0, _⟩ => rfl
  | ⟨1, _⟩ => rfl

/-! ## The even and odd rows -/

theorem rowsOf_apply (p : ℕ) (hp : p < 2) (h : S2048x2x1024.Slices ![0, p, 0] S2048x1x1024) (W1 : S4096x1024.Idx → EReal)
    (s : Fin 2048) (j : Fin 1024) :
    rowsOf ![0, p, 0] h W1 (ix2 s j) = W1 (ix2 ⟨2 * s.val + p, by omega⟩ j) := by
  unfold rowsOf
  rw [LibFoldedRows.fold_apply _ shapeCasts_S2048x1x1024_S2048x1024 s (0 : Fin 1) j s (by simp)]
  rw [extractStridedSlice_apply _ _ h _ (ix3 s (⟨p, hp⟩ : Fin 2) j) (fun a => by
    match a with
    | ⟨0, _⟩ => simp
    | ⟨1, _⟩ => simp
    | ⟨2, _⟩ => simp)]
  exact LibFoldedRows.split_apply W1 shapeCasts_S4096x1024_S2048x2x1024 s (⟨p, hp⟩ : Fin 2) j ⟨2 * s.val + p, by omega⟩ (by simp; omega)

/-! ## The premixed weights and the bias rows -/

theorem premix_apply (a0 a1 : S_.Idx → EReal) (We Wo : S2048x1024.Idx → EReal) (s : Fin 2048) (j : Fin 1024) :
    premix a0 a1 We Wo (ix2 s j) = a0 ix0 * We (ix2 s j) + a1 ix0 * Wo (ix2 s j) := by
  unfold premix
  rw [truncf_apply, addf_apply, mulf_apply, mulf_apply, broadcastInDim_scalar_apply, broadcastInDim_scalar_apply]

theorem colsum_apply (h : S2048x1024.Reduces [0] S1024) (X : S2048x1024.Idx → EReal) (j : Fin 1024) :
    Host.reduceAdd (F := Ideal) (φ := .f32) X (constant (F := Ideal) S_ .f32 0x00000000#32) reducesTo_S2048x1024_S1024_d0 h_S_ (ix1 j)
      = 0 + ∑ s : Fin 2048, X (ix2 s j) := by
  rw [hostReduceAdd_apply, Ideal.hostReduceAdd_single reducesTo_S2048x1024_S1024_d0 h, constant_apply, Ideal.ofBits_zero_f32]
  refine congrArg (0 + ·) (Finset.sum_congr rfl fun s _ => congrArg X ?_)
  funext a
  apply Fin.ext
  rw [h.lift_val]
  match a with
  | ⟨0, _⟩ => simp [Shape.Reduces.liftVal]
  | ⟨1, _⟩ => simp [Shape.Reduces.liftVal]

theorem reduces_cols : S2048x1024.Reduces [0] S1024 := by decide

theorem biasRow_apply (a0 a1 : S_.Idx → EReal) (We Wo : S2048x1024.Idx → EReal) (b1 : S1024.Idx → EReal) (j : Fin 1024) :
    biasRow a0 a1 We Wo b1 (ix2 (0 : Fin 1) j)
      = (b1 (ix1 j) + a0 ix0 * (0 + ∑ s : Fin 2048, We (ix2 s j))) + a1 ix0 * (0 + ∑ s : Fin 2048, Wo (ix2 s j)) := by
  unfold biasRow
  rw [shapeCast_a_1a_apply, addf_apply, addf_apply, mulf_apply, mulf_apply, broadcastInDim_scalar_apply,
    broadcastInDim_scalar_apply, colsum_apply reduces_cols, colsum_apply reduces_cols]

theorem biasRow2_apply (b2 : S64.Idx → EReal) (o : Fin 64) : biasRow2 b2 (ix2 (0 : Fin 1) o) = b2 (ix1 o) := by
  unfold biasRow2
  rw [shapeCast_a_1a_apply]

end Cert.KernelIdeal.HostSide

end
-- ==== Proof.LibRankFactor.lean ====
/-
  A sum over a rank index of (a row contracted with a factor's column) times the other factor's entry is the row
  contracted with the product of the two factors: on the extended reals, for entries that are all finite,

      ∑ k, (∑ i, a i * v i k) * u k  =  ∑ i, a i * ∑ k, u k * v i k.

  Distributivity and the exchange of the two sums are laws of the reals; they fail at the infinities, so every entry
  is first written as the coercion of a real number, the identity is proved there, and the coercion is pushed back
  through products and finite sums.
-/
import Mathlib.Data.EReal.Operations
import Mathlib.Algebra.BigOperators.Ring.Finset
import Mathlib.Algebra.BigOperators.Group.Finset.Sigma
import Mathlib.Tactic.Ring

namespace RankFactor

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {α : Type*} (f : α → EReal) (h : ∀ a, f a ≠ ⊤ ∧ f a ≠ ⊥) :
    ∃ g : α → ℝ, ∀ a, f a = (g a : EReal) :=
  ⟨fun a => (f a).toReal, fun a => (EReal.coe_toReal (h a).1 (h a).2).symm⟩

/-- An extended real whose absolute value `max x (-x)` is below `⊤` is neither infinity. -/
theorem finite_of_abs_lt_top {x : EReal} (h : max x (-x) < ⊤) : x ≠ ⊤ ∧ x ≠ ⊥ := by
  constructor
  · rintro rfl
    exact absurd h (by simp)
  · rintro rfl
    exact absurd h (by simp)

/-- The identity on the reals: expand both sides into the double sum of `a i * v i k * u k`. -/
theorem real_factor {ι κ : Type*} [Fintype ι] [Fintype κ] (a : ι → ℝ) (v : ι → κ → ℝ) (u : κ → ℝ) :
    ∑ k, (∑ i, a i * v i k) * u k = ∑ i, a i * ∑ k, u k * v i k := by
  simp only [Finset.sum_mul, Finset.mul_sum]
  rw [Finset.sum_comm]
  exact Finset.sum_congr rfl fun i _ => Finset.sum_congr rfl fun k _ => by ring

/-- The identity on the extended reals, for finite entries. -/
theorem factor {ι κ : Type*} [Fintype ι] [Fintype κ] (a : ι → EReal) (v : ι → κ → EReal) (u : κ → EReal)
    (ha : ∀ i, a i ≠ ⊤ ∧ a i ≠ ⊥) (hv : ∀ i k, v i k ≠ ⊤ ∧ v i k ≠ ⊥) (hu : ∀ k, u k ≠ ⊤ ∧ u k ≠ ⊥) :
    ∑ k, (∑ i, a i * v i k) * u k = ∑ i, a i * ∑ k, u k * v i k := by
  obtain ⟨a', ha'⟩ := exists_real a ha
  obtain ⟨v', hv'⟩ := exists_real (fun p : ι × κ => v p.1 p.2) (fun p => hv p.1 p.2)
  obtain ⟨u', hu'⟩ := exists_real u hu
  have hv'' : ∀ i k, v i k = (v' (i, k) : EReal) := fun i k => hv' (i, k)
  calc ∑ k, (∑ i, a i * v i k) * u k
      = ∑ k, (((∑ i, a' i * v' (i, k)) * u' k : ℝ) : EReal) :=
        Finset.sum_congr rfl fun k _ => by
          rw [EReal.coe_mul, coe_sum, hu' k]
          exact congrArg (· * (u' k : EReal)) (Finset.sum_congr rfl fun i _ => by rw [ha' i, hv'' i k, EReal.coe_mul])
    _ = ((∑ k, (∑ i, a' i * v' (i, k)) * u' k : ℝ) : EReal) := (coe_sum _ _).symm
    _ = ((∑ i, a' i * ∑ k, u' k * v' (i, k) : ℝ) : EReal) :=
        congrArg _ (real_factor a' (fun i k => v' (i, k)) u')
    _ = ∑ i, ((a' i * ∑ k, u' k * v' (i, k) : ℝ) : EReal) := coe_sum _ _
    _ = ∑ i, a i * ∑ k, u k * v i k :=
        Finset.sum_congr rfl fun i _ => by
          rw [EReal.coe_mul, coe_sum, ha' i]
          exact congrArg ((a' i : EReal) * ·) (Finset.sum_congr rfl fun k _ => by rw [hu' k, hv'' i k, EReal.coe_mul])

end RankFactor
-- ==== Proof.Interp.lean ====
/-
  Interpolation of the table by a cubic.

  The four rows of the table are named by the words 0, 1, 2, 3; put w = v - 3/2, so that the rows sit at the nodes
  -3/2, -1/2, 1/2, 3/2. For each column c of the table there is exactly one cubic

      p_c(w) = A 0 c + A 1 c * w + A 2 c * w^2 + A 3 c * w^3

  that takes the value T v c at the node of v: its coefficients are A k c = ∑ v, (vander k v / 48) * T v c, because
  vander / 48 is the inverse of the Vandermonde matrix of the four nodes. Contracting a row of the embedded matrix
  (entry i = 2 s + c is T (xi s) c) with a weight vector W is then the same as contracting the powers of w with the
  even and odd halves of W and the coefficients A:

      ∑ i, T (xi (i / 2)) (i % 2) * W i = ∑ s, (p_0(w s) * W (2 s) + p_1(w s) * W (2 s + 1)).

  Distributivity fails at the infinities of the extended reals, so the identity is proved on the reals and carried
  over for finite entries: every entry is written as the coercion of a real number, and the coercion is pushed
  through sums and products.
-/
import proofs.«140908_g53369263620405_cont_9to1c4b_809_13_alg».proof.Proof.Spec
import proofs.«140908_g53369263620405_cont_9to1c4b_809_13_alg».proof.Proof.LibRankFactor
import Mathlib.Tactic
import Mathlib.Algebra.BigOperators.Fin
import Mathlib.Data.Fintype.BigOperators
import Mathlib.Logic.Equiv.Fin.Basic

namespace Cert.TableMlp

/-- The cubic with coefficients ∑ u, (vander k u / 48) * T u c takes the value T v c at the node v - 3/2, because
    vander / 48 inverts the Vandermonde matrix of the four nodes. One check for each of the four nodes. -/
theorem cubic_at_node (T : Fin 4 → Fin 2 → ℝ) (c : Fin 2) (v : Fin 4) (x : ℝ) (hx : x = (v.val : ℝ) - 3 / 2) :
    (∑ u : Fin 4, vander 0 u / 48 * T u c) + x * (∑ u : Fin 4, vander 1 u / 48 * T u c)
        + (x * x) * (∑ u : Fin 4, vander 2 u / 48 * T u c) + ((x * x) * x) * (∑ u : Fin 4, vander 3 u / 48 * T u c)
      = T v c := by
  subst hx
  fin_cases v <;> simp [vander, Fin.sum_univ_four] <;> ring

/-- A sum over 4096 columns is the sum over 2048 words of the word's even and odd column. -/
theorem sum_pairs (f : Fin 4096 → ℝ) :
    ∑ i, f i = ∑ s : Fin 2048, (f ⟨2 * s.val, by omega⟩ + f ⟨2 * s.val + 1, by omega⟩) := by
  rw [← Equiv.sum_comp (finProdFinEquiv : Fin 2048 × Fin 2 ≃ Fin 4096) f, Fintype.sum_prod_type]
  refine Finset.sum_congr rfl fun s _ => ?_
  rw [Fin.sum_univ_two]
  congr 1 <;> congr 1 <;> apply Fin.ext <;> simp [finProdFinEquiv] <;> omega

/-- The identity on the reals. The sum over the 4096 columns is split into the even and odd column of each word;
    there the table entry T (xi s) c is the value of the cubic of column c at the node of xi s; what remains is a
    regrouping of finite sums. -/
theorem premixed_real (T : Fin 4 → Fin 2 → ℝ) (W : Fin 4096 → ℝ) (b : ℝ) (xi : Fin 2048 → Fin 4)
    (w : Fin 2048 → ℝ) (hw : ∀ s, w s = ((xi s).val : ℝ) - 3 / 2)
    (A : Fin 4 → Fin 2 → ℝ) (hA : ∀ k c, A k c = ∑ v : Fin 4, vander k v / 48 * T v c)
    (We Wo : Fin 2048 → ℝ)
    (hWe : ∀ s : Fin 2048, We s = W ⟨2 * s.val, by omega⟩)
    (hWo : ∀ s : Fin 2048, Wo s = W ⟨2 * s.val + 1, by omega⟩) :
    ((∑ s, w s * (A 1 0 * We s + A 1 1 * Wo s) + ∑ s, (w s * w s) * (A 2 0 * We s + A 2 1 * Wo s))
        + ∑ s, ((w s * w s) * w s) * (A 3 0 * We s + A 3 1 * Wo s))
      + ((b + A 0 0 * (0 + ∑ s, We s)) + A 0 1 * (0 + ∑ s, Wo s))
    = (∑ i : Fin 4096, T (xi (half i)) (parity i) * W i) + b := by
  have hhalf0 : ∀ s : Fin 2048, half ⟨2 * s.val, by omega⟩ = s := fun s => Fin.ext (by simp [half])
  have hhalf1 : ∀ s : Fin 2048, half ⟨2 * s.val + 1, by omega⟩ = s := fun s => Fin.ext (by simp [half]; omega)
  have hpar0 : ∀ s : Fin 2048, parity ⟨2 * s.val, by omega⟩ = 0 := fun s => Fin.ext (by simp [parity])
  have hpar1 : ∀ s : Fin 2048, parity ⟨2 * s.val + 1, by omega⟩ = 1 := fun s => Fin.ext (by simp [parity])
  have hnode : ∀ (s : Fin 2048) (c : Fin 2),
      T (xi s) c = A 0 c + w s * A 1 c + (w s * w s) * A 2 c + ((w s * w s) * w s) * A 3 c := fun s c => by
    rw [hA 0 c, hA 1 c, hA 2 c, hA 3 c]
    exact (cubic_at_node T c (xi s) (w s) (hw s)).symm
  rw [sum_pairs]
  simp only [hhalf0, hhalf1, hpar0, hpar1, ← hWe, ← hWo, hnode, zero_add, Finset.mul_sum]
  rw [← Finset.sum_add_distrib, ← Finset.sum_add_distrib, add_assoc b, ← Finset.sum_add_distrib, add_comm b,
    ← add_assoc, ← Finset.sum_add_distrib]
  refine congrArg (· + b) (Finset.sum_congr rfl fun s _ => ?_)
  ring

/-- The identity on the extended reals, for finite entries. Every datum is the coercion of a real number (the
    table, the weights and the offset because they are finite; the coefficients Q and the nodes w by their
    definitions), so both sides are coercions of the two sides of the identity on the reals. -/
theorem premixed_eq_embedded
    (T : Fin 4 → Fin 2 → EReal) (hT : ∀ v c, T v c ≠ ⊥ ∧ T v c ≠ ⊤)
    (W : Fin 4096 → EReal) (hW : ∀ i, W i ≠ ⊥ ∧ W i ≠ ⊤)
    (b : EReal) (hb : b ≠ ⊥ ∧ b ≠ ⊤)
    (Q : Fin 4 → Fin 4 → EReal) (hQ : ∀ k v, Q k v = ((vander k v / 48 : ℝ) : EReal))
    (xi : Fin 2048 → Fin 4) (w : Fin 2048 → EReal)
    (hw : ∀ s, w s = (((xi s).val : ℝ) : EReal) - ((3 / 2 : ℝ) : EReal))
    (A : Fin 4 → Fin 2 → EReal) (hA : ∀ k c, A k c = ∑ v : Fin 4, Q k v * T v c)
    (We Wo : Fin 2048 → EReal)
    (hWe : ∀ s : Fin 2048, We s = W ⟨2 * s.val, by omega⟩)
    (hWo : ∀ s : Fin 2048, Wo s = W ⟨2 * s.val + 1, by omega⟩) :
    ((∑ s, w s * (A 1 0 * We s + A 1 1 * Wo s) + ∑ s, (w s * w s) * (A 2 0 * We s + A 2 1 * Wo s))
        + ∑ s, ((w s * w s) * w s) * (A 3 0 * We s + A 3 1 * Wo s))
      + ((b + A 0 0 * (0 + ∑ s, We s)) + A 0 1 * (0 + ∑ s, Wo s))
    = (∑ i : Fin 4096, T (xi (half i)) (parity i) * W i) + b := by
  -- the finite data as real numbers
  obtain ⟨T', hT'⟩ : ∃ T' : Fin 4 → Fin 2 → ℝ, ∀ v c, T v c = (T' v c : EReal) :=
    ⟨fun v c => (T v c).toReal, fun v c => (EReal.coe_toReal (hT v c).2 (hT v c).1).symm⟩
  obtain ⟨W', hW'⟩ : ∃ W' : Fin 4096 → ℝ, ∀ i, W i = (W' i : EReal) :=
    ⟨fun i => (W i).toReal, fun i => (EReal.coe_toReal (hW i).2 (hW i).1).symm⟩
  obtain ⟨b', rfl⟩ : ∃ b' : ℝ, b = (b' : EReal) := ⟨b.toReal, (EReal.coe_toReal hb.2 hb.1).symm⟩
  -- the derived data as real numbers
  obtain ⟨w', hw'r, hw'⟩ : ∃ w' : Fin 2048 → ℝ,
      (∀ s, w' s = ((xi s).val : ℝ) - 3 / 2) ∧ ∀ s, w s = (w' s : EReal) :=
    ⟨fun s => ((xi s).val : ℝ) - 3 / 2, fun _ => rfl, fun s => by rw [hw s, ← EReal.coe_sub]⟩
  obtain ⟨A', hA'r, hA'⟩ : ∃ A' : Fin 4 → Fin 2 → ℝ,
      (∀ k c, A' k c = ∑ v : Fin 4, vander k v / 48 * T' v c) ∧ ∀ k c, A k c = (A' k c : EReal) :=
    ⟨fun k c => ∑ v : Fin 4, vander k v / 48 * T' v c, fun _ _ => rfl, fun k c => by
      rw [hA k c, RankFactor.coe_sum]
      exact Finset.sum_congr rfl fun v _ => by rw [hQ k v, hT' v c, EReal.coe_mul]⟩
  obtain ⟨We', hWe'r, hWe'⟩ : ∃ We' : Fin 2048 → ℝ,
      (∀ s : Fin 2048, We' s = W' ⟨2 * s.val, by omega⟩) ∧ ∀ s, We s = (We' s : EReal) :=
    ⟨fun s => W' ⟨2 * s.val, by omega⟩, fun _ => rfl, fun s => by rw [hWe s, hW']⟩
  obtain ⟨Wo', hWo'r, hWo'⟩ : ∃ Wo' : Fin 2048 → ℝ,
      (∀ s : Fin 2048, Wo' s = W' ⟨2 * s.val + 1, by omega⟩) ∧ ∀ s, Wo s = (Wo' s : EReal) :=
    ⟨fun s => W' ⟨2 * s.val + 1, by omega⟩, fun _ => rfl, fun s => by rw [hWo s, hW']⟩
  -- the identity on the reals, read in the extended reals
  have key := congrArg Real.toEReal (premixed_real T' W' b' xi w' hw'r A' hA'r We' Wo' hWe'r hWo'r)
  simp only [EReal.coe_add, EReal.coe_mul, RankFactor.coe_sum, EReal.coe_zero] at key
  simp only [hw', hA', hWe', hWo', hT', hW']
  exact key

end Cert.TableMlp
-- ==== Proof.Bridge.lean ====
/-
  The kernel's result array is the specification's.

  The kernel never forms the embedded matrix. It replaces the table look-up by a cubic in the node `w = v - 3/2` of each
  word `v`: with the coefficients `A k c` = ∑ over rows u of (V k u / 48) · T (u, c), the cubic of column `c` takes the
  value T (v, c) at the node of `v` for v = 0, 1, 2, 3 (V / 48 inverts the Vandermonde matrix of the four nodes). The
  three products of the node powers with the premixed weights, plus the bias row carrying the constant terms, are then
  the row of the embedded matrix times the first weight matrix plus the first bias. This needs every table entry,
  weight and bias to be finite (distributivity fails at the infinities) and every word to lie in 0..3.
-/
import proofs.«140908_g53369263620405_cont_9to1c4b_809_13_alg».proof.Proof.KernelArray
import proofs.«140908_g53369263620405_cont_9to1c4b_809_13_alg».proof.Proof.KernelHostRead
import proofs.«140908_g53369263620405_cont_9to1c4b_809_13_alg».proof.Proof.Interp

noncomputable section

namespace Cert.KernelIdeal.Bridge

open Cert.KernelIdeal Cert.KernelIdeal.Gen Idealize.ShloMosaic Idealize.ShloMosaic.ValueIdx Cert.KernelIdeal.HostSide
open Cert.TableMlp (rowOf InRange Finite half parity)

/-- A word in 0..3 is its own row number. -/
theorem toInt_eq_rowOf (v : BitVec 32) (h0 : 0 ≤ v.toInt) (h3 : v.toInt ≤ 3) : v.toInt = ((rowOf v).val : ℤ) := by
  have hlt : v.toNat < 2 ^ 32 := v.isLt
  show v.toInt = ((v.toNat % 4 : ℕ) : ℤ)
  unfold BitVec.toInt at h0 h3 ⊢
  split_ifs at h0 h3 ⊢ <;> omega

/-- The node of a word in 0..3: its row number minus three halves. -/
theorem node_eq (v : BitVec 32) (h0 : 0 ≤ v.toInt) (h3 : v.toInt ≤ 3) :
    Block.node v = (((rowOf v).val : ℝ) : EReal) - ((3 / 2 : ℝ) : EReal) := by
  unfold Block.node
  rw [bits_three_halves, toInt_eq_rowOf v h0 h3]
  norm_cast

/-- One entry of the hidden layer before the rectifier: the kernel's three products and bias row against the embedded row
    times the first weights plus the first bias. -/
theorem preact_eq (x : S16384x2048.Idx → BitVec 32) (T : S4x2.Idx → EReal) (W1 : S4096x1024.Idx → EReal)
    (b1 : S1024.Idx → EReal) (hT : Finite T) (hW1 : Finite W1) (hb1 : Finite b1) (hx : InRange x)
    (b : Fin 16384) (j : Fin 1024) :
    Block.preact (fun s => x (ix2 b s))
      (fun s => premix (coeffAt ![1, 0] slices_S4x2_S1x1_1_0 T) (coeffAt ![1, 1] slices_S4x2_S1x1_1_1 T)
        (rowsOf ![0, 0, 0] slices_S2048x2x1024_S2048x1x1024_0_0_0 W1) (rowsOf ![0, 1, 0] slices_S2048x2x1024_S2048x1x1024_0_1_0 W1) (ix2 s j))
      (fun s => premix (coeffAt ![2, 0] slices_S4x2_S1x1_2_0 T) (coeffAt ![2, 1] slices_S4x2_S1x1_2_1 T)
        (rowsOf ![0, 0, 0] slices_S2048x2x1024_S2048x1x1024_0_0_0 W1) (rowsOf ![0, 1, 0] slices_S2048x2x1024_S2048x1x1024_0_1_0 W1) (ix2 s j))
      (fun s => premix (coeffAt ![3, 0] slices_S4x2_S1x1_3_0 T) (coeffAt ![3, 1] slices_S4x2_S1x1_3_1 T)
        (rowsOf ![0, 0, 0] slices_S2048x2x1024_S2048x1x1024_0_0_0 W1) (rowsOf ![0, 1, 0] slices_S2048x2x1024_S2048x1x1024_0_1_0 W1) (ix2 s j))
      (biasRow (coeffAt ![0, 0] slices_S4x2_S1x1_0_0 T) (coeffAt ![0, 1] slices_S4x2_S1x1_0_1 T)
        (rowsOf ![0, 0, 0] slices_S2048x2x1024_S2048x1x1024_0_0_0 W1) (rowsOf ![0, 1, 0] slices_S2048x2x1024_S2048x1x1024_0_1_0 W1) b1
        (ix2 (0 : Fin 1) j))
    = (∑ i : Fin 4096, Cert.TableMlp.embedded x T b i * W1 (ix2 i j)) + b1 (ix1 j) := by
  unfold Block.preact
  simp only [premix_apply, biasRow_apply, coeffAt_apply 0 0 (by decide) (by decide), coeffAt_apply 0 1 (by decide) (by decide),
    coeffAt_apply 1 0 (by decide) (by decide), coeffAt_apply 1 1 (by decide) (by decide),
    coeffAt_apply 2 0 (by decide) (by decide), coeffAt_apply 2 1 (by decide) (by decide),
    coeffAt_apply 3 0 (by decide) (by decide), coeffAt_apply 3 1 (by decide) (by decide),
    rowsOf_apply 0 (by decide), rowsOf_apply 1 (by decide)]
  exact Cert.TableMlp.premixed_eq_embedded (fun v c => T (ix2 v c)) (fun v c => hT (ix2 v c))
    (fun i => W1 (ix2 i j)) (fun i => hW1 (ix2 i j)) (b1 (ix1 j)) (hb1 (ix1 j))
    (fun k v => quot (ix2 k v)) quot_apply
    (fun s => rowOf (x (ix2 b s))) (fun s => Block.node (x (ix2 b s)))
    (fun s => node_eq _ (hx (ix2 b s)).1 (hx (ix2 b s)).2)
    (fun k c => coeffs T (ix2 k c)) (fun k c => coeffs_apply T k c)
    (fun s => W1 (ix2 ⟨2 * s.val + 0, by omega⟩ j)) (fun s => W1 (ix2 ⟨2 * s.val + 1, by omega⟩ j))
    (fun _ => rfl) (fun _ => rfl)

/-- The kernel's result array, from the arguments, is the specification. -/
theorem kernOut_eq_out (x : S16384x2048.Idx → BitVec 32) (T : S4x2.Idx → EReal) (W1 : S4096x1024.Idx → EReal)
    (b1 : S1024.Idx → EReal) (W2 : S1024x64.Idx → EReal) (b2 : S64.Idx → EReal)
    (hT : Finite T) (hW1 : Finite W1) (hb1 : Finite b1) (hx : InRange x) :
    ArrayValue.kernOut x
      (premix (coeffAt ![1, 0] slices_S4x2_S1x1_1_0 T) (coeffAt ![1, 1] slices_S4x2_S1x1_1_1 T)
        (rowsOf ![0, 0, 0] slices_S2048x2x1024_S2048x1x1024_0_0_0 W1) (rowsOf ![0, 1, 0] slices_S2048x2x1024_S2048x1x1024_0_1_0 W1))
      (premix (coeffAt ![2, 0] slices_S4x2_S1x1_2_0 T) (coeffAt ![2, 1] slices_S4x2_S1x1_2_1 T)
        (rowsOf ![0, 0, 0] slices_S2048x2x1024_S2048x1x1024_0_0_0 W1) (rowsOf ![0, 1, 0] slices_S2048x2x1024_S2048x1x1024_0_1_0 W1))
      (premix (coeffAt ![3, 0] slices_S4x2_S1x1_3_0 T) (coeffAt ![3, 1] slices_S4x2_S1x1_3_1 T)
        (rowsOf ![0, 0, 0] slices_S2048x2x1024_S2048x1x1024_0_0_0 W1) (rowsOf ![0, 1, 0] slices_S2048x2x1024_S2048x1x1024_0_1_0 W1))
      (biasRow (coeffAt ![0, 0] slices_S4x2_S1x1_0_0 T) (coeffAt ![0, 1] slices_S4x2_S1x1_0_1 T)
        (rowsOf ![0, 0, 0] slices_S2048x2x1024_S2048x1x1024_0_0_0 W1) (rowsOf ![0, 1, 0] slices_S2048x2x1024_S2048x1x1024_0_1_0 W1) b1)
      W2 (biasRow2 b2)
    = Cert.TableMlp.out x T W1 b1 W2 b2 := by
  funext i
  unfold ArrayValue.kernOut Cert.TableMlp.out
  refine congrArg₂ (· + ·) (Finset.sum_congr rfl fun j _ => congrArg (· * W2 (ix2 j (i 1))) ?_) (biasRow2_apply b2 (i 1))
  unfold Cert.TableMlp.hidden
  exact congrArg (max · 0) (preact_eq x T W1 b1 hT hW1 hb1 hx (i 0) j)

end Cert.KernelIdeal.Bridge

end
-- ==== Proof.PreDecode.lean ====
/-
  The precondition, read back.

  The precondition is one bit: the conjunction of seven tests, each the conjunction over a whole array of an
  entrywise comparison. Five say, entry by entry, that the absolute value max a (-a) of an entry of the table, of
  either weight matrix or of either offset vector lies strictly below +∞: the entry is then neither infinity, for
  the absolute value of either one is +∞. Two say, word by word, that a word of the index array is at least 0 and
  at most 3, read as a signed integer. A conjunction of bits is 1 exactly when every bit is, so the precondition
  being 1 gives each comparison at each index.
-/
import proofs.«140908_g53369263620405_cont_9to1c4b_809_13_alg».proof.Proof.Gen.Pre_finite_inputs
import proofs.«140908_g53369263620405_cont_9to1c4b_809_13_alg».proof.Proof.Spec
import proofs.«140908_g53369263620405_cont_9to1c4b_809_13_alg».proof.Proof.LibRankFactor
import Idealize.ShloMosaic.Lib.ReduceAll

noncomputable section

namespace Cert.Pre_finite_inputs.Decode

open Idealize.ShloMosaic Cert.Pre_finite_inputs Cert.Pre_finite_inputs.Gen

/-- The scalar shape has one index. -/
instance : Subsingleton S_.Idx := ⟨fun a b => funext fun d => d.elim0⟩

/-- The pattern 0x7F800000 (sign 0, exponent all ones, fraction 0) denotes +∞. -/
theorem inf_eq_top : Ideal.ofBits .f32 0x7F800000#32 = (⊤ : EReal) := by
  simp [Ideal.ofBits, Ideal.ieee]

/-- An entry whose absolute value tests strictly below +∞ is neither infinity. -/
theorem finite_of_abs_olt_inf (a : EReal)
    (h : Ideal.cmp .olt (max a (-a)) (Ideal.ofBits .f32 0x7F800000#32) = 1#1) : a ≠ ⊥ ∧ a ≠ ⊤ := by
  rw [inf_eq_top] at h
  have hlt : max a (-a) < ⊤ := by
    by_contra hn
    simp [Ideal.cmp, hn] at h
  exact ⟨(RankFactor.finite_of_abs_lt_top hlt).2, (RankFactor.finite_of_abs_lt_top hlt).1⟩

/-- A word that tests at least 0, signed, is nonnegative read as a signed integer. -/
theorem nonneg_of_sge_zero (w : BitVec 32) (h : IntOp.cmpi .sge w 0#32 = 1#1) : 0 ≤ w.toInt := by
  have := IntOp.cmpi_sge.1 h
  rwa [show (0#32 : BitVec 32).toInt = 0 from by decide] at this

/-- A word that tests at most 3, signed, is at most 3 read as a signed integer. -/
theorem le_three_of_sle_three (w : BitVec 32) (h : IntOp.cmpi .sle w 3#32 = 1#1) : w.toInt ≤ 3 := by
  have := IntOp.cmpi_sle.1 h
  rwa [show (3#32 : BitVec 32).toInt = 3 from by decide] at this

/-- The precondition decoded: if the conjunction of the seven tests is 1, every entry of the table, of the two
    weight matrices and of the two offset vectors is finite, and every word of the index array lies in 0..3. -/
theorem of_fn (x : IVec S16384x2048 32) (T : FVec Ideal S4x2 .f32) (W1 : FVec Ideal S4096x1024 .f32)
    (b1 : FVec Ideal S1024 .f32) (W2 : FVec Ideal S1024x64 .f32) (b2 : FVec Ideal S64 .f32)
    (h : Cert.Pre_finite_inputs.fn (F := Ideal) x T W1 b1 W2 b2 = (fun _ => 1#1)) :
    Cert.TableMlp.Finite T ∧ Cert.TableMlp.Finite W1 ∧ Cert.TableMlp.Finite b1 ∧ Cert.TableMlp.Finite W2
      ∧ Cert.TableMlp.Finite b2 ∧ Cert.TableMlp.InRange x := by
  have e := congrFun h ValueIdx.ix0
  dsimp only [fn, fn_part1] at e
  simp only [Idealize.ShloMosaic.andi, IntOp.andi_eq_one] at e
  obtain ⟨⟨⟨⟨⟨⟨hT, hW1⟩, hb1⟩, hW2⟩, hb2⟩, hx0⟩, hx3⟩ := e
  refine ⟨fun i => ?_, fun i => ?_, fun i => ?_, fun i => ?_, fun i => ?_, fun i => ⟨?_, ?_⟩⟩
  · exact finite_of_abs_olt_inf (T i) (Host.reduce_andi_all _ _ _ _ _ hT i)
  · exact finite_of_abs_olt_inf (W1 i) (Host.reduce_andi_all _ _ _ _ _ hW1 i)
  · exact finite_of_abs_olt_inf (b1 i) (Host.reduce_andi_all _ _ _ _ _ hb1 i)
  · exact finite_of_abs_olt_inf (W2 i) (Host.reduce_andi_all _ _ _ _ _ hW2 i)
  · exact finite_of_abs_olt_inf (b2 i) (Host.reduce_andi_all _ _ _ _ _ hb2 i)
  · exact nonneg_of_sge_zero (x i) (Host.reduce_andi_all _ _ _ _ _ hx0 i)
  · exact le_three_of_sle_three (x i) (Host.reduce_andi_all _ _ _ _ _ hx3 i)

end Cert.Pre_finite_inputs.Decode

end
-- ==== Proof.KernelValue.lean ====
/-
  The kernel's run, with its result array stated as the specification of the arguments.

  The run of the region leaves the result at `kernOut` of the arrays the region was launched on; those arrays are the
  host-side terms of the arguments (the index array and the second weight matrix are arguments themselves); and, for
  finite float arguments and index words in 0..3 — which is what the precondition says —, `kernOut` of those terms is
  the two-layer perceptron over the looked-up embedding.
-/
import proofs.«140908_g53369263620405_cont_9to1c4b_809_13_alg».proof.Proof.Bridge
import proofs.«140908_g53369263620405_cont_9to1c4b_809_13_alg».proof.Proof.PreDecode
import proofs.«140908_g53369263620405_cont_9to1c4b_809_13_alg».proof.Defs

noncomputable section

namespace Cert.KernelIdeal.KernelValue

open Cert.KernelIdeal Cert.KernelIdeal.Gen Idealize.ShloMosaic Idealize.ShloMosaic.TcCoe Idealize.SL.Sem
  Cert.KernelIdeal.HostSide

/-- `kernOut` of equal arrays. -/
theorem kernOut_congr {x x' : S16384x2048.Idx → BitVec 32} {K1 K1' K2 K2' K3 K3' : S2048x1024.Idx → EReal}
    {bp bp' : S1x1024.Idx → EReal} {W2 W2' : S1024x64.Idx → EReal} {br br' : S1x64.Idx → EReal}
    (h0 : x = x') (h1 : K1 = K1') (h2 : K2 = K2') (h3 : K3 = K3') (h4 : bp = bp') (h5 : W2 = W2') (h6 : br = br') :
    ArrayValue.kernOut x K1 K2 K3 bp W2 br = ArrayValue.kernOut x' K1' K2' K3' bp' W2' br' := by
  subst h0 h1 h2 h3 h4 h5 h6; rfl

variable (m : (ℓ : Loc nD τ sig) → Buf (Elt Ideal) ℓ) (ρ : Dev nD → PrngReg)

/-- The kernel's run under the precondition: the result array is the specification of the argument arrays, and
    the arguments end unchanged. -/
theorem run_out (hpre : Cert.Pre_KernelIdeal m) :
    θ_run defs (onTc (τ := τ) (main (F := Ideal))) ⟨m, fun _ => 0, ρ⟩ fun r => ∀ c : Dev nD,
      r.2.mem ((c : Thread nD τ).loc main_v52)
        = Cert.TableMlp.out (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨hT, hW1, hb1, -, -, hx⟩ := Cert.Pre_finite_inputs.Decode.of_fn _ _ _ _ _ _ (hpre c)
    exact ⟨(h c).1.trans ((kernOut_congr (V_main_arg0 m c) (V_v17 m c) (V_v27 m c) (V_v37 m c) (V_v50 m c)
        (V_main_arg4 m c) (V_v51 m c)).trans (Bridge.kernOut_eq_out _ _ _ _ _ _ hT hW1 hb1 hx)), (h c).2⟩)
    (ArrayValue.run m ρ)

end Cert.KernelIdeal.KernelValue

end
-- ==== Proof.RefTerm.lean ====
/-
  The reference's result as one composed function of its six arguments.

  A word of the index array is first wrapped (a negative word has 4 added), the table's row at the wrapped word is
  gathered (the start clamped into the table), and where the wrapped word lies outside 0..3 a fill value replaces the
  gathered row. The looked-up rows [16384, 2048, 2] are recast as the matrix [16384, 4096]; then come the two dense
  layers: a product with the first weights, the first bias stretched over the rows, the maximum with zero, a product
  with the second weights and the second bias stretched over the rows.
-/
import proofs.«140908_g53369263620405_cont_9to1c4b_809_13_alg».proof.Proof.Gen.ReferenceIdeal

noncomputable section

namespace Cert.ReferenceIdeal.RefTerm

open Cert.ReferenceIdeal Idealize.ShloMosaic
open Facts₀ Facts

variable {F : FTy → Type} [FloatOps F]

/-- The wrapped words: a negative word has 4 added. -/
def wrapped (x : IVec S16384x2048 32) : IVec S16384x2048 32 :=
  select (cmpi .slt x (broadcastInDim S16384x2048 ![] bcast_S_S16384x2048 (constantI S_ 32 0#32)))
    (addi x (broadcastInDim S16384x2048 ![] bcast_S_S16384x2048 (constantI S_ 32 4#32))) x

/-- The wrapped words with a unit last axis: the gather's start indices. -/
def starts (x : IVec S16384x2048 32) : IVec S16384x2048x1 32 :=
  broadcastInDim S16384x2048x1 ![0, 1] bcast_S16384x2048_S16384x2048x1_0_1 (wrapped x)

/-- Where the wrapped word lies in 0..3. -/
def inside (x : IVec S16384x2048 32) : IVec S16384x2048 1 :=
  Host.reduce IntOp.andi
    (andi (cmpi .sge (starts x) (broadcastInDim S16384x2048x1 ![] bcast_S_S16384x2048x1 (constantI S_ 32 0#32)))
      (cmpi .sle (starts x) (broadcastInDim S16384x2048x1 ![0, 1, 2] bcast_S1x1x1_S16384x2048x1_0_1_2
        (broadcastInDim S1x1x1 ![2] bcast_S1_S1x1x1_2 (constantI S1 32 3#32)))))
    (constantI S_ 1 1#1) reducesTo_S16384x2048x1_S16384x2048_d2 h_S_

/-- The looked-up rows: the gathered row where the word is inside, the fill value elsewhere. -/
def taken (x : IVec S16384x2048 32) (T : FVec F S4x2 .f32) : FVec F S16384x2048x2 .f32 :=
  select (broadcastInDim S16384x2048x2 ![0, 1] bcast_S16384x2048_S16384x2048x2_0_1 (inside x))
    (Host.gather gather_S4x2_S16384x2048x1_S16384x2048x2_2_0_n_n_0_2_12 T (starts x))
    (broadcastInDim S16384x2048x2 ![] bcast_S_S16384x2048x2 (constant S_ .f32 0x7FC00000#32))

/-- The embedded matrix: the looked-up rows laid side by side. -/
def embeddedMatrix (x : IVec S16384x2048 32) (T : FVec F S4x2 .f32) : FVec F S16384x4096 .f32 :=
  fun i => shapeCast S16384x4096 (taken x T) shapeCasts_S16384x2048x2_S16384x4096 i

/-- The hidden layer. -/
def hiddenLayer (x : IVec S16384x2048 32) (T : FVec F S4x2 .f32) (W1 : FVec F S4096x1024 .f32) (b1 : FVec F S1024 .f32) :
    FVec F S16384x1024 .f32 :=
  maximumf
    (addf (Host.dotGeneral dot_S16384x4096_S4096x1024_S16384x1024_1_0_0_1_n_n none (embeddedMatrix x T) W1)
      (broadcastInDim S16384x1024 ![0, 1] bcast_S1x1024_S16384x1024_0_1 (broadcastInDim S1x1024 ![1] bcast_S1024_S1x1024_1 b1)))
    (broadcastInDim S16384x1024 ![] bcast_S_S16384x1024 (constant S_ .f32 0x00000000#32))

/-- The result. -/
def term (x : IVec S16384x2048 32) (T : FVec F S4x2 .f32) (W1 : FVec F S4096x1024 .f32) (b1 : FVec F S1024 .f32)
    (W2 : FVec F S1024x64 .f32) (b2 : FVec F S64 .f32) : FVec F S16384x64 .f32 :=
  addf (Host.dotGeneral dot_S16384x1024_S1024x64_S16384x64_1_0_0_1_n_n none (hiddenLayer x T W1 b1) W2)
    (broadcastInDim S16384x64 ![0, 1] bcast_S1x64_S16384x64_0_1 (broadcastInDim S1x64 ![1] bcast_S64_S1x64_1 b2))

end Cert.ReferenceIdeal.RefTerm

end
-- ==== Proof.RefRun.lean ====
/-
  The reference program's run.

  The reference looks each word of the index array up in a table of four rows and two columns, lays the two entries
  of every looked-up row side by side (a row of 2048 words becomes a row of 4096 numbers), and applies two dense
  layers: the hidden layer is the larger of (embedded · W1 + b1) and zero, the result is hidden · W2 + b2.

  The look-up is written the way `take` is: a negative word is first moved up by the number of rows (four), the rows
  are then fetched with the start index clamped into the table, and an entry is replaced by a fill value wherever the
  moved word still lies outside 0..3 (the test being the conjunction, over a unit axis, of "word ≥ 0" and "word ≤ 3").

  This module lists the program's thirty-five operations in order — those of the look-up, of the selection inside it
  and of the rectifier in the places where they are called —, shows that the program is exactly this straight line, and
  reads the run back: every weakly fair execution ends with the result buffer at the composition of the operations
  applied to the six argument arrays, and with the argument arrays unchanged.
-/
import proofs.«140908_g53369263620405_cont_9to1c4b_809_13_alg».proof.Proof.Gen.ReferenceIdeal
import proofs.«140908_g53369263620405_cont_9to1c4b_809_13_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 35 operations, in order: the look-up's twenty-three (the selection it calls in the seventh place),
    the reshape, the first dense layer's four, the rectifier's three, the second dense layer's four. A called
    function's operations stand in its call's place, each over the buffers that call names. -/
abbrev ops : List (HloOp τ sig (Elt F)) :=
  [ nullary main_call0_c (constantI S_ 32 0#32 : (⟨S_, .i32⟩ : BufTy).Contents (Elt F)),
    unary main_call0_c main_call0_v0 (broadcastInDim S16384x2048 ![] bcast_S_S16384x2048 : (⟨S_, .i32⟩ : BufTy).Contents (Elt F) → (⟨S16384x2048, .i32⟩ : BufTy).Contents (Elt F)),
    binary main_arg0 main_call0_v0 main_call0_v1 (cmpi .slt : (⟨S16384x2048, .i32⟩ : BufTy).Contents (Elt F) → (⟨S16384x2048, .i32⟩ : BufTy).Contents (Elt F) → (⟨S16384x2048, .i1⟩ : BufTy).Contents (Elt F)),
    nullary main_call0_c_0 (constantI S_ 32 4#32 : (⟨S_, .i32⟩ : BufTy).Contents (Elt F)),
    unary main_call0_c_0 main_call0_v2 (broadcastInDim S16384x2048 ![] bcast_S_S16384x2048 : (⟨S_, .i32⟩ : BufTy).Contents (Elt F) → (⟨S16384x2048, .i32⟩ : BufTy).Contents (Elt F)),
    binary main_arg0 main_call0_v2 main_call0_v3 (addi : (⟨S16384x2048, .i32⟩ : BufTy).Contents (Elt F) → (⟨S16384x2048, .i32⟩ : BufTy).Contents (Elt F) → (⟨S16384x2048, .i32⟩ : BufTy).Contents (Elt F)),
    ternary main_call0_v1 main_call0_v3 main_arg0 main_call0_v4 (select : (⟨S16384x2048, .i1⟩ : BufTy).Contents (Elt F) → (⟨S16384x2048, .i32⟩ : BufTy).Contents (Elt F) → (⟨S16384x2048, .i32⟩ : BufTy).Contents (Elt F) → (⟨S16384x2048, .i32⟩ : BufTy).Contents (Elt F)),
    unary main_call0_v4 main_call0_v5 (broadcastInDim S16384x2048x1 ![0, 1] bcast_S16384x2048_S16384x2048x1_0_1 : (⟨S16384x2048, .i32⟩ : BufTy).Contents (Elt F) → (⟨S16384x2048x1, .i32⟩ : BufTy).Contents (Elt F)),
    nullary main_call0_c_1 (constantI S1 32 3#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x2048x1 ![] bcast_S_S16384x2048x1 : (⟨S_, .i32⟩ : BufTy).Contents (Elt F) → (⟨S16384x2048x1, .i32⟩ : BufTy).Contents (Elt F)),
    binary main_call0_v5 main_call0_v6 main_call0_v7 (cmpi .sge : (⟨S16384x2048x1, .i32⟩ : BufTy).Contents (Elt F) → (⟨S16384x2048x1, .i32⟩ : BufTy).Contents (Elt F) → (⟨S16384x2048x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x2048x1 ![0, 1, 2] bcast_S1x1x1_S16384x2048x1_0_1_2 : (⟨S1x1x1, .i32⟩ : BufTy).Contents (Elt F) → (⟨S16384x2048x1, .i32⟩ : BufTy).Contents (Elt F)),
    binary main_call0_v5 main_call0_v9 main_call0_v10 (cmpi .sle : (⟨S16384x2048x1, .i32⟩ : BufTy).Contents (Elt F) → (⟨S16384x2048x1, .i32⟩ : BufTy).Contents (Elt F) → (⟨S16384x2048x1, .i1⟩ : BufTy).Contents (Elt F)),
    binary main_call0_v7 main_call0_v10 main_call0_v11 (andi : (⟨S16384x2048x1, .i1⟩ : BufTy).Contents (Elt F) → (⟨S16384x2048x1, .i1⟩ : BufTy).Contents (Elt F) → (⟨S16384x2048x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S16384x2048x1_S16384x2048_d2 h_S_ : (⟨S16384x2048x1, .i1⟩ : BufTy).Contents (Elt F) → (⟨S_, .i1⟩ : BufTy).Contents (Elt F) → (⟨S16384x2048, .i1⟩ : BufTy).Contents (Elt F)),
    binary main_arg1 main_call0_v5 main_call0_v13 (fun x i => Host.gather gather_S4x2_S16384x2048x1_S16384x2048x2_2_0_n_n_0_2_12 x i : (⟨S4x2, .f32⟩ : BufTy).Contents (Elt F) → (⟨S16384x2048x1, .i32⟩ : BufTy).Contents (Elt F) → (⟨S16384x2048x2, .f32⟩ : BufTy).Contents (Elt F)),
    unary main_call0_v12 main_call0_v14 (broadcastInDim S16384x2048x2 ![0, 1] bcast_S16384x2048_S16384x2048x2_0_1 : (⟨S16384x2048, .i1⟩ : BufTy).Contents (Elt F) → (⟨S16384x2048x2, .i1⟩ : BufTy).Contents (Elt F)),
    nullary main_call0_cst (constant S_ .f32 0x7FC00000#32 : (⟨S_, .f32⟩ : BufTy).Contents (Elt F)),
    unary main_call0_cst main_call0_v15 (broadcastInDim S16384x2048x2 ![] bcast_S_S16384x2048x2 : (⟨S_, .f32⟩ : BufTy).Contents (Elt F) → (⟨S16384x2048x2, .f32⟩ : BufTy).Contents (Elt F)),
    ternary main_call0_v14 main_call0_v13 main_call0_v15 main_v0 (select : (⟨S16384x2048x2, .i1⟩ : BufTy).Contents (Elt F) → (⟨S16384x2048x2, .f32⟩ : BufTy).Contents (Elt F) → (⟨S16384x2048x2, .f32⟩ : BufTy).Contents (Elt F) → (⟨S16384x2048x2, .f32⟩ : BufTy).Contents (Elt F)),
    reshape main_v0 main_v1 rfl shapeCasts_S16384x2048x2_S16384x4096,
    binary main_v1 main_arg2 main_v2 ((fun l r => Host.dotGeneral dot_S16384x4096_S4096x1024_S16384x1024_1_0_0_1_n_n none l r) : (⟨S16384x4096, .f32⟩ : BufTy).Contents (Elt F) → (⟨S4096x1024, .f32⟩ : BufTy).Contents (Elt F) → (⟨S16384x1024, .f32⟩ : BufTy).Contents (Elt F)),
    unary main_arg3 main_v3 (broadcastInDim S1x1024 ![1] bcast_S1024_S1x1024_1 : (⟨S1024, .f32⟩ : BufTy).Contents (Elt F) → (⟨S1x1024, .f32⟩ : BufTy).Contents (Elt F)),
    unary main_v3 main_v4 (broadcastInDim S16384x1024 ![0, 1] bcast_S1x1024_S16384x1024_0_1 : (⟨S1x1024, .f32⟩ : BufTy).Contents (Elt F) → (⟨S16384x1024, .f32⟩ : BufTy).Contents (Elt F)),
    binary main_v2 main_v4 main_v5 (addf : (⟨S16384x1024, .f32⟩ : BufTy).Contents (Elt F) → (⟨S16384x1024, .f32⟩ : BufTy).Contents (Elt F) → (⟨S16384x1024, .f32⟩ : BufTy).Contents (Elt F)),
    nullary main_call1_cst (constant S_ .f32 0x00000000#32 : (⟨S_, .f32⟩ : BufTy).Contents (Elt F)),
    unary main_call1_cst main_call1_v0 (broadcastInDim S16384x1024 ![] bcast_S_S16384x1024 : (⟨S_, .f32⟩ : BufTy).Contents (Elt F) → (⟨S16384x1024, .f32⟩ : BufTy).Contents (Elt F)),
    binary main_v5 main_call1_v0 main_v6 (maximumf : (⟨S16384x1024, .f32⟩ : BufTy).Contents (Elt F) → (⟨S16384x1024, .f32⟩ : BufTy).Contents (Elt F) → (⟨S16384x1024, .f32⟩ : BufTy).Contents (Elt F)),
    binary main_v6 main_arg4 main_v7 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S16384x64 ![0, 1] bcast_S1x64_S16384x64_0_1 : (⟨S1x64, .f32⟩ : BufTy).Contents (Elt F) → (⟨S16384x64, .f32⟩ : BufTy).Contents (Elt F)),
    binary main_v7 main_v9 main_v10 (addf : (⟨S16384x64, .f32⟩ : BufTy).Contents (Elt F) → (⟨S16384x64, .f32⟩ : BufTy).Contents (Elt F) → (⟨S16384x64, .f32⟩ : BufTy).Contents (Elt F)) ]

-- The conjunction over the unit axis is a fold over every index of its operand: it is kept folded while the two
-- sides are compared, since both sides apply it to the same operands.
attribute [local irreducible] Host.reduce in
set_option maxRecDepth 8192 in
/-- The program is that straight line: each called function's body stands in its call's place, and an operation of a
    called function, stated over typed buffer names, is the same operation over the buffers themselves. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub ..⟩

set_option maxRecDepth 8192 in
set_option maxHeartbeats 3500000 in
/-- On every device, for any float values, from any memory with zero counters: every weakly fair execution of the
    program terminates with the result buffer at the operations' composed function of the six argument arrays and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v10) = RefTerm.term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v10).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefRun

end
-- ==== Proof.LibTableRows.lean ====
/-
  A table look-up by row read at an index; the looked-up rows laid side by side; a conjunction of ones.

  table[idx] of a two-axis table [N, K] at an integer array idx : [R, C] lowers to a stablehlo.gather whose slices
  are whole rows of width K: offset axis 2 of the result is axis 1 of the table, axis 0 of the table is collapsed and
  is the one the start index names, and the start indices are laid out as [R, C, 1]. Result element (r, c, k) is the
  table's entry in column k of the row idx[r, c, 0], that word read as a signed integer and clamped into [0, N − 1].

  An array [P, Q, R] recast as the matrix [P, Q·R] reads, at row p and column q·R + r, the entry (p, q, r): both
  have the row-major position (p·Q + q)·R + r = p·(Q·R) + (q·R + r).

  A reduction by and, from the bit 1, of an array of bits that are all 1 is 1 at every index of its result: a left
  fold of and that starts at 1 and meets only 1s stays at 1.
-/
import Idealize.ShloMosaic.PureOps
import Idealize.ShloMosaic.Lib.ValueIdx
import Idealize.ShloMosaic.Lib.Pipeline.Value
import Idealize.ShloMosaic.PureOps.Reduce

namespace Idealize.ShloMosaic.TableRows

open Idealize.ShloMosaic Idealize.ShloMosaic.ValueIdx

variable {α : Type}

/-- The dimension numbers of table[idx] for a table [N, K], start indices [R, C, 1] and a result [R, C, K];
    their conditions wf are decided on a program's literal shapes. -/
abbrev tableDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- THE LOOK-UP READ AT (r, c, k): column k of the table's row idx[r, c, 0], that word read signed and clamped into
    [0, N − 1]. -/
theorem gather_table_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (r : Fin R) (c : Fin C) (k : Fin K) :
    Host.gather (tableDims N K R C wf) x idx (ix3 r c k)
      = x (ix2 ⟨min (idx (ix3 r c (0 : Fin 1))).toInt.toNat (N - 1), by omega⟩ k) := by
  unfold Host.gather
  congr 1
  funext a
  refine Fin.ext ?_
  show (tableDims N K R C wf).start (ix3 r c k) idx a + (tableDims N K R C wf).batchCoord (ix3 r c k) a
      + (tableDims N K R C wf).offCoord (ix3 r c k) a = _
  rw [GatherDims.batchCoord_eq_zero _ _ _ List.not_mem_nil, Nat.add_zero]
  have h10 : (1 : Fin 2) ≠ 0 := Fin.ne_of_val_ne (by decide)
  match a with
  | ⟨0, _⟩ =>
    -- the row axis: collapsed, so no offset; its start is the clamped index word
    have hc : (0 : Fin 2) ∉ (tableDims N K R C wf).sKept :=
      fun h => ((GatherDims.mem_sKept _ _).mp h).1 (List.mem_singleton.mpr rfl)
    show (tableDims N K R C wf).start (ix3 r c k) idx (0 : Fin 2) + (tableDims N K R C wf).offCoord (ix3 r c k) (0 : Fin 2) = _
    rw [GatherDims.offCoord_eq_zero _ _ _ hc, Nat.add_zero]
    unfold GatherDims.start
    rw [dif_pos (show (0 : Fin 2) ∈ (tableDims N K R C wf).startIndexMap from List.mem_singleton.mpr rfl)]
    have hsi : (tableDims N K R C wf).siIdx (ix3 r c k) ⟨List.idxOf (0 : Fin 2) (tableDims N K R C wf).startIndexMap,
        List.idxOf_lt_length_iff.2 (List.mem_singleton.mpr rfl)⟩ = ix3 r c (0 : Fin 1) := by
      funext d; refine Fin.ext ?_
      match d with
      | ⟨0, _⟩ => rfl
      | ⟨1, _⟩ => rfl
      | ⟨2, _⟩ => rfl
    rw [hsi]
    rfl
  | ⟨1, _⟩ =>
    -- the column axis: no start index names it, and it is the table's one kept axis, read off the result's axis 2
    have hs : (tableDims N K R C wf).start (ix3 r c k) idx (1 : Fin 2) = 0 := by
      unfold GatherDims.start
      rw [dif_neg (fun h => h10 (List.mem_singleton.mp h))]
    have hk : (1 : Fin 2) ∈ (tableDims N K R C wf).sKept :=
      (GatherDims.mem_sKept _ _).mpr ⟨fun h => h10 (List.mem_singleton.mp h), List.not_mem_nil⟩
    show (tableDims N K R C wf).start (ix3 r c k) idx (1 : Fin 2) + (tableDims N K R C wf).offCoord (ix3 r c k) (1 : Fin 2) = _
    rw [hs, Nat.zero_add]
    unfold GatherDims.offCoord
    rw [dif_pos hk]
    rfl

/-- Folding the two trailing axes: column q·R + r of the matrix is entry (q, r) of the array's row. -/
theorem fold_last_apply {P Q R M : Nat} (x : (⟨3, ![P, Q, R]⟩ : Shape).Idx → α)
    (h : (⟨3, ![P, Q, R]⟩ : Shape).ShapeCasts ⟨2, ![P, M]⟩) (hM : M = Q * R) (p : Fin P) (q : Fin Q) (r : Fin R) (m : Fin M)
    (hm : m.val = q.val * R + r.val) :
    shapeCast ⟨2, ![P, M]⟩ x h (ix2 p m) = x (ix3 p q r) := by
  refine shapeCast_apply x h _ _ ?_
  rw [Shape.rowMajor_val_three, Shape.rowMajor_val_two]
  show (p.val * Q + q.val) * R + r.val = p.val * M + m.val
  rw [hm, hM, Nat.add_mul, Nat.mul_assoc, Nat.add_assoc]

/-- A left fold by and over bits that are all 1, started at 1, is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- A reduction by and, from the bit 1, of an array of bits that are all 1 is 1 at every index of its result. -/
theorem reduce_andi_of_all_one {s t u : Shape} {axes : List (Fin s.rank)} (x : s.Idx → BitVec 1) (hx : ∀ i, x i = 1#1)
    (init : u.Idx → BitVec 1) (h : s.ReducesTo axes t) (hu : 0 < u.numel) (hinit : init (Shape.Idx.first hu) = 1#1)
    (j : t.Idx) : Host.reduce IntOp.andi x init h hu j = 1#1 := by
  rw [Host.reduce_eq_foldl, hinit]
  exact foldl_andi_of_all_one x hx _

end Idealize.ShloMosaic.TableRows
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibDenseRelu.lean ====
/-
  Dense layers followed by a rectifier, read at coordinates over the extended reals.

  Two layers are named. `affineRelu X W b` is the matrix whose entry (a, q) is
  `max (∑ k, X (a, k) · W (k, q) + b (0, q)) 0`: a matrix product with a bias row added and the rectifier applied.
  `pairRelu A Wa Hm Wh b` has the entry `max ((∑ k, A (a, k) · Wa (k, q) + ∑ k, Hm (a, k) · Wh (k, q)) + b (0, q)) 0`:
  two products added, then the bias row, then the rectifier.

  Each layer is met in two spellings. The accumulating spelling multiplies into a zero accumulator, stretches the
  one-row bias down the rows, and takes the maximum with a splat of zero; the host spelling uses the plain product,
  stretches the one-row bias by a dimension map, and takes the maximum with a scalar zero stretched to the whole shape.
  The host spelling of the second layer adds in another order, `(A·Wa + b) + Hm·Wh`; addition on the extended reals is
  commutative and associative (the infinities included), so both orders give one number. Rows of a product depend only on
  the same rows of the left operand, which is what lets a row block of the result be computed from the row block of the
  left operand: `affineReluAt` and `pairReluAt` take the row as a coordinate so that this is visible in their statements.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«140908_g53369263620405_cont_9to1c4b_809_13_alg».proof.Proof.LibColumnBlocks
import proofs.«140908_g53369263620405_cont_9to1c4b_809_13_alg».proof.Proof.LibCastForms

noncomputable section

namespace Cert.LibDenseRelu

open Idealize.ShloMosaic Idealize.ShloMosaic.ValueIdx

/-! ## The two layers -/

section Defs
variable {N K H : ℕ}

/-- Entry (a, q) of `relu (X · W + b)`. -/
def affineReluAt (X : (⟨2, ![N, K]⟩ : Shape).Idx → EReal) (W : (⟨2, ![K, H]⟩ : Shape).Idx → EReal)
    (b : (⟨2, ![1, H]⟩ : Shape).Idx → EReal) (a : Fin N) (q : Fin H) : EReal :=
  max ((∑ k : Fin K, X (ix2 a k) * W (ix2 k q)) + b (ix2 (0 : Fin 1) q)) 0

/-- `relu (X · W + b)` as a matrix. -/
def affineRelu (X : (⟨2, ![N, K]⟩ : Shape).Idx → EReal) (W : (⟨2, ![K, H]⟩ : Shape).Idx → EReal)
    (b : (⟨2, ![1, H]⟩ : Shape).Idx → EReal) : (⟨2, ![N, H]⟩ : Shape).Idx → EReal :=
  fun j => affineReluAt X W b (j 0) (j 1)

theorem affineRelu_ix2 (X : (⟨2, ![N, K]⟩ : Shape).Idx → EReal) (W : (⟨2, ![K, H]⟩ : Shape).Idx → EReal)
    (b : (⟨2, ![1, H]⟩ : Shape).Idx → EReal) (a : Fin N) (q : Fin H) :
    affineRelu X W b (ix2 a q) = affineReluAt X W b a q := rfl

/-- Entry (a, q) of `relu ((A · Wa + Hm · Wh) + b)`. -/
def pairReluAt (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) (a : Fin N) (q : Fin H) : EReal :=
  max (((∑ k : Fin K, A (ix2 a k) * Wa (ix2 k q)) + (∑ k : Fin K, Hm (ix2 a k) * Wh (ix2 k q))) + b (ix2 (0 : Fin 1) q)) 0

/-- `relu ((A · Wa + Hm · Wh) + b)` as a matrix. -/
def pairRelu (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) : (⟨2, ![N, H]⟩ : Shape).Idx → EReal :=
  fun j => pairReluAt A Wa Hm Wh b (j 0) (j 1)

theorem pairRelu_ix2 (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) (a : Fin N) (q : Fin H) :
    pairRelu A Wa Hm Wh b (ix2 a q) = pairReluAt A Wa Hm Wh b a q := rfl

/-- An entry of `affineRelu` depends on one row of the left operand: two left operands that agree on a row give
    the same entry there. -/
theorem affineReluAt_congr_row {N' : ℕ} (X : (⟨2, ![N, K]⟩ : Shape).Idx → EReal) (X' : (⟨2, ![N', K]⟩ : Shape).Idx → EReal)
    (W : (⟨2, ![K, H]⟩ : Shape).Idx → EReal) (b : (⟨2, ![1, H]⟩ : Shape).Idx → EReal) (a : Fin N) (a' : Fin N') (q q' : Fin H)
    (hX : ∀ k : Fin K, X (ix2 a k) = X' (ix2 a' k)) (hq : q.val = q'.val) :
    affineReluAt X W b a q = affineReluAt X' W b a' q' := by
  obtain rfl : q = q' := Fin.ext hq
  unfold affineReluAt
  simp only [hX]

/-- An entry of `pairRelu` depends on one row of each left operand. -/
theorem pairReluAt_congr_row {N' : ℕ} (A : (⟨2, ![N, K]⟩ : Shape).Idx → EReal) (A' : (⟨2, ![N', K]⟩ : Shape).Idx → EReal)
    (Wa : (⟨2, ![K, H]⟩ : Shape).Idx → EReal) (Hm : (⟨2, ![N, K]⟩ : Shape).Idx → EReal) (Hm' : (⟨2, ![N', K]⟩ : Shape).Idx → EReal)
    (Wh : (⟨2, ![K, H]⟩ : Shape).Idx → EReal) (b : (⟨2, ![1, H]⟩ : Shape).Idx → EReal) (a : Fin N) (a' : Fin N') (q q' : Fin H)
    (hA : ∀ k : Fin K, A (ix2 a k) = A' (ix2 a' k)) (hH : ∀ k : Fin K, Hm (ix2 a k) = Hm' (ix2 a' k)) (hq : q.val = q'.val) :
    pairReluAt A Wa Hm Wh b a q = pairReluAt A' Wa Hm' Wh b a' q' := by
  obtain rfl : q = q' := Fin.ext hq
  unfold pairReluAt
  simp only [hA, hH]

end Defs

/-! ## The accumulating spelling: a product into a zero accumulator, the bias row stretched, a splat of zero -/

section Tile
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- One product, the bias row, the rectifier. -/
theorem tile_affineRelu (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    maximumf (addf (matmul d prec x w (constant ⟨2, ![A, B]⟩ .f32 0x00000000#32)) (broadcastTo ⟨2, ![A, B]⟩ b hb))
        (broadcast ⟨2, ![A, B]⟩ (Scalar.ofBits .f32 0x00000000#32)) (ix2 p q)
      = affineReluAt x w b p q := by
  rw [maximumf_apply, addf_apply, LibColumnBlocks.matmul_zero_apply d hr hs hlc hrc hl0 hr1 x w p q prec,
    broadcastTo_1b_ab_apply b hb p q, broadcast_apply]
  show max _ (Ideal.ofBits .f32 0x00000000#32) = _
  rw [Ideal.ofBits_zero_f32]
  rfl

include hr hs hlc hrc hl0 hr1 in
/-- Two products added, then the bias row, then the rectifier. -/
theorem tile_pairRelu (prec : Option ContractPrecision) (xa : FVec Ideal ⟨2, ![A, K]⟩ φ₁) (wa : FVec Ideal ⟨2, ![K, B]⟩ φ₂)
    (xh : FVec Ideal ⟨2, ![A, K]⟩ φ₁) (wh : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    maximumf (addf (addf (matmul d prec xa wa (constant ⟨2, ![A, B]⟩ .f32 0x00000000#32))
          (matmul d prec xh wh (constant ⟨2, ![A, B]⟩ .f32 0x00000000#32))) (broadcastTo ⟨2, ![A, B]⟩ b hb))
        (broadcast ⟨2, ![A, B]⟩ (Scalar.ofBits .f32 0x00000000#32)) (ix2 p q)
      = pairReluAt xa wa xh wh b p q := by
  rw [maximumf_apply, addf_apply, addf_apply, LibColumnBlocks.matmul_zero_apply d hr hs hlc hrc hl0 hr1 xa wa p q prec,
    LibColumnBlocks.matmul_zero_apply d hr hs hlc hrc hl0 hr1 xh wh p q prec, broadcastTo_1b_ab_apply b hb p q, broadcast_apply]
  show max _ (Ideal.ofBits .f32 0x00000000#32) = _
  rw [Ideal.ofBits_zero_f32]
  rfl

end Tile

/-! ## The host spelling: the plain product, the bias row stretched by a dimension map, a scalar zero stretched -/

section Host
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The host's `relu (X · W + b)`, as a whole matrix. -/
theorem host_affineRelu (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (hz : (⟨0, ![]⟩ : Shape).BroadcastsInDim ⟨2, ![A, B]⟩ ![]) :
    maximumf (addf (Host.dotGeneral d prec x w) (broadcastInDim ⟨2, ![A, B]⟩ (![0, 1] : Fin 2 → Fin 2) hb b))
        (broadcastInDim ⟨2, ![A, B]⟩ ![] hz (constant (F := Ideal) ⟨0, ![]⟩ .f32 0x00000000#32))
      = affineRelu x w b := by
  funext j
  obtain ⟨p, q, rfl⟩ : ∃ (p : Fin A) (q : Fin B), j = ix2 p q := ⟨j 0, j 1, eq_ix2 j⟩
  rw [affineRelu_ix2, maximumf_apply, addf_apply, LibColumnBlocks.hostDot_apply d hr hs hlc hrc hl0 hr1 x w p q prec,
    LibCastForms.bcast_1b_ab_apply b hb p q, broadcastInDim_scalar_apply, constant_apply, Ideal.ofBits_zero_f32]
  rfl

include hr hs hlc hrc hl0 hr1 in
/-- The host's `relu ((A · Wa + b) + Hm · Wh)` is `pairRelu`: the three terms are added in another order. -/
theorem host_pairRelu (prec : Option ContractPrecision) (xa : FVec Ideal ⟨2, ![A, K]⟩ .f32) (wa : FVec Ideal ⟨2, ![K, B]⟩ .f32)
    (xh : FVec Ideal ⟨2, ![A, K]⟩ .f32) (wh : FVec Ideal ⟨2, ![K, B]⟩ .f32) (b : FVec Ideal ⟨2, ![1, B]⟩ .f32)
    (hb : (⟨2, ![1, B]⟩ : Shape).BroadcastsInDim ⟨2, ![A, B]⟩ (![0, 1] : Fin 2 → Fin 2))
    (hz : (⟨0, ![]⟩ : Shape).BroadcastsInDim ⟨2, ![A, B]⟩ ![]) :
    maximumf (addf (addf (Host.dotGeneral d prec xa wa) (broadcastInDim ⟨2, ![A, B]⟩ (![0, 1] : Fin 2 → Fin 2) hb b))
          (Host.dotGeneral d prec xh wh))
        (broadcastInDim ⟨2, ![A, B]⟩ ![] hz (constant (F := Ideal) ⟨0, ![]⟩ .f32 0x00000000#32))
      = pairRelu xa wa xh wh b := by
  funext j
  obtain ⟨p, q, rfl⟩ : ∃ (p : Fin A) (q : Fin B), j = ix2 p q := ⟨j 0, j 1, eq_ix2 j⟩
  rw [pairRelu_ix2, maximumf_apply, addf_apply, addf_apply, LibColumnBlocks.hostDot_apply d hr hs hlc hrc hl0 hr1 xa wa p q prec,
    LibColumnBlocks.hostDot_apply d hr hs hlc hrc hl0 hr1 xh wh p q prec,
    LibCastForms.bcast_1b_ab_apply b hb p q, broadcastInDim_scalar_apply, constant_apply, Ideal.ofBits_zero_f32]
  unfold pairReluAt
  rw [add_right_comm]

end Host

end Cert.LibDenseRelu

end
-- ==== Proof.RefValue.lean ====
/-
  The reference's result, index by index.

  Every word v of the index array lies in 0..3, read as a signed integer. So the wrap leaves it alone (it is not
  negative), both range tests hold and the mask that guards the look-up is all ones, and the gather, which clamps
  its start into 0..3, reads the table's row v itself: v read signed is v read unsigned, and that is v modulo four.
  The looked-up rows, laid side by side, are then the embedded matrix: column i = 2·s + c of row b holds entry c of
  the table's row named by word s of row b. The two dense layers are a matrix product with a stretched bias row and
  the maximum with zero, then a second product with its bias; entry by entry they are the sums the specification
  writes.
-/
import proofs.«140908_g53369263620405_cont_9to1c4b_809_13_alg».proof.Proof.RefTerm
import proofs.«140908_g53369263620405_cont_9to1c4b_809_13_alg».proof.Proof.Spec
import proofs.«140908_g53369263620405_cont_9to1c4b_809_13_alg».proof.Proof.LibTableRows
import proofs.«140908_g53369263620405_cont_9to1c4b_809_13_alg».proof.Proof.LibDenseRelu

noncomputable section

namespace Cert.ReferenceIdeal.RefValue

open Cert.ReferenceIdeal Idealize.ShloMosaic Idealize.ShloMosaic.ValueIdx
open Facts₀ Facts

/-! ## A word in 0..3 -/

section Word
variable (w : BitVec 32) (h0 : 0 ≤ w.toInt) (h3 : w.toInt ≤ 3)

include h0 in
/-- A nonnegative word does not test below 0. -/
theorem slt_zero_eq_zero : IntOp.cmpi .slt w 0#32 = 0#1 := by
  refine eq_zero_of_ne_one fun h => ?_
  have := IntOp.cmpi_slt.1 h
  rw [show (0#32 : BitVec 32).toInt = 0 from by decide] at this
  omega

include h0 in
/-- A nonnegative word tests at least 0. -/
theorem sge_zero_eq_one : IntOp.cmpi .sge w 0#32 = 1#1 :=
  IntOp.cmpi_sge.2 (by rw [show (0#32 : BitVec 32).toInt = 0 from by decide]; exact h0)

include h3 in
/-- A word at most 3 tests at most 3. -/
theorem sle_three_eq_one : IntOp.cmpi .sle w 3#32 = 1#1 :=
  IntOp.cmpi_sle.2 (by rw [show (3#32 : BitVec 32).toInt = 3 from by decide]; exact h3)

include h0 h3 in
/-- A word in 0..3 clamped into 0..3 is itself, and is its own remainder modulo four. -/
theorem clamp_eq_mod : min w.toInt.toNat (4 - 1) = w.toNat % 4 := by
  have e := BitVec.toInt_eq_toNat_cond w
  have := w.isLt
  split at e <;> omega

end Word

/-! ## The look-up -/

section Lookup
variable (x : IVec S16384x2048 32) (hx : Cert.TableMlp.InRange x)

include hx in
/-- No word is negative, so the wrap changes nothing. -/
theorem wrapped_eq : RefTerm.wrapped x = x := by
  funext i
  show Scalar.select (IntOp.cmpi .slt (x i) 0#32) _ (x i) = x i
  rw [slt_zero_eq_zero (x i) (hx i).1, select_zero]

include hx in
/-- The start index at (b, s, 0) is the word (b, s). -/
theorem starts_apply (b : Fin 16384) (s : Fin 2048) (z : Fin 1) : RefTerm.starts x (ix3 b s z) = x (ix2 b s) := by
  unfold RefTerm.starts
  rw [wrapped_eq x hx]
  exact broadcastInDim_apply _ _ x _ (ix2 b s) fun a => by
    match a with
    | ⟨0, _⟩ => rfl
    | ⟨1, _⟩ => rfl

include hx in
/-- Every word passes both range tests, so the mask is all ones. -/
theorem inside_eq_one (j : S16384x2048.Idx) : RefTerm.inside x j = 1#1 := by
  unfold RefTerm.inside
  refine TableRows.reduce_andi_of_all_one _ (fun i => ?_) _ _ _ rfl j
  obtain ⟨b, s, z, rfl⟩ : ∃ (b : Fin 16384) (s : Fin 2048) (z : Fin 1), i = ix3 b s z := ⟨i 0, i 1, i 2, eq_ix3 i⟩
  show IntOp.andi (IntOp.cmpi .sge (RefTerm.starts x (ix3 b s z)) 0#32) (IntOp.cmpi .sle (RefTerm.starts x (ix3 b s z)) 3#32) = 1#1
  rw [starts_apply x hx, sge_zero_eq_one _ (hx _).1, sle_three_eq_one _ (hx _).2]
  decide

end Lookup

/-! ## The looked-up rows and the embedded matrix -/

section Rows
variable (x : IVec S16384x2048 32) (hx : Cert.TableMlp.InRange x) (T : FVec Ideal S4x2 .f32)

include hx in
/-- Entry (b, s, c) of the looked-up rows is entry c of the table's row named by word (b, s). -/
theorem taken_apply (b : Fin 16384) (s : Fin 2048) (c : Fin 2) :
    RefTerm.taken (F := Ideal) x T (ix3 b s c) = T (ix2 (Cert.TableMlp.rowOf (x (ix2 b s))) c) := by
  unfold RefTerm.taken
  rw [select_apply]
  have hm : broadcastInDim S16384x2048x2 ![0, 1] bcast_S16384x2048_S16384x2048x2_0_1 (RefTerm.inside x) (ix3 b s c) = 1#1 := by
    rw [broadcastInDim_apply _ _ (RefTerm.inside x) _ (ix2 b s) fun a => by
      match a with
      | ⟨0, _⟩ => rfl
      | ⟨1, _⟩ => rfl]
    exact inside_eq_one x hx _
  rw [hm, select_one]
  refine (TableRows.gather_table_apply (N := 4) (K := 2) (R := 16384) (C := 2048) (by decide)
    gather_S4x2_S16384x2048x1_S16384x2048x2_2_0_n_n_0_2_12_wf T (RefTerm.starts x) b s c).trans ?_
  refine congrArg (fun r => T (ix2 r c)) (Fin.ext ?_)
  show min (RefTerm.starts x (ix3 b s (0 : Fin 1))).toInt.toNat (4 - 1) = (x (ix2 b s)).toNat % 4
  rw [starts_apply x hx]
  exact clamp_eq_mod _ (hx _).1 (hx _).2

include hx in
/-- Entry (b, i) of the embedded matrix, as the specification writes it. -/
theorem embeddedMatrix_apply (b : Fin 16384) (i : Fin 4096) :
    RefTerm.embeddedMatrix (F := Ideal) x T (ix2 b i) = Cert.TableMlp.embedded x T b i := by
  unfold RefTerm.embeddedMatrix Cert.TableMlp.embedded
  rw [TableRows.fold_last_apply (RefTerm.taken (F := Ideal) x T) shapeCasts_S16384x2048x2_S16384x4096 (by decide) b
    (Cert.TableMlp.half i) (Cert.TableMlp.parity i) i (by
      show i.val = i.val / 2 * 2 + i.val % 2
      omega)]
  exact taken_apply x hx T b _ _

end Rows

/-! ## The two dense layers -/

section Layers
variable (x : IVec S16384x2048 32) (hx : Cert.TableMlp.InRange x) (T : FVec Ideal S4x2 .f32)
  (W1 : FVec Ideal S4096x1024 .f32) (b1 : FVec Ideal S1024 .f32) (W2 : FVec Ideal S1024x64 .f32) (b2 : FVec Ideal S64 .f32)

include hx in
/-- Entry (a, q) of the hidden layer: the row of the embedded matrix against column q of the first weights, plus
    the first bias at q, or zero if that is negative. -/
theorem hiddenLayer_apply (a : Fin 16384) (q : Fin 1024) :
    RefTerm.hiddenLayer (F := Ideal) x T W1 b1 (ix2 a q) = Cert.TableMlp.hidden x T W1 b1 a q := by
  unfold RefTerm.hiddenLayer
  rw [Cert.LibDenseRelu.host_affineRelu dot_S16384x4096_S4096x1024_S16384x1024_1_0_0_1_n_n rfl rfl rfl rfl
    (fun _ _ => rfl) (fun _ _ => rfl) none (RefTerm.embeddedMatrix (F := Ideal) x T) W1
    (broadcastInDim S1x1024 ![1] bcast_S1024_S1x1024_1 b1) bcast_S1x1024_S16384x1024_0_1 bcast_S_S16384x1024,
    Cert.LibDenseRelu.affineRelu_ix2]
  unfold Cert.LibDenseRelu.affineReluAt Cert.TableMlp.hidden
  rw [Cert.LibCastForms.bcast_row b1 bcast_S1024_S1x1024_1 (0 : Fin 1) q]
  simp only [embeddedMatrix_apply x hx T]

include hx in
/-- Entry (a, j) of the result: the row of the hidden layer against column j of the second weights, plus the second
    bias at j. -/
theorem term_apply (a : Fin 16384) (j : Fin 64) :
    RefTerm.term (F := Ideal) x T W1 b1 W2 b2 (ix2 a j)
      = (∑ k : Fin 1024, Cert.TableMlp.hidden x T W1 b1 a k * W2 (ix2 k j)) + b2 (ix1 j) := by
  unfold RefTerm.term
  rw [addf_apply, Cert.LibColumnBlocks.hostDot_apply dot_S16384x1024_S1024x64_S16384x64_1_0_0_1_n_n rfl rfl rfl rfl
    (fun _ _ => rfl) (fun _ _ => rfl) (RefTerm.hiddenLayer (F := Ideal) x T W1 b1) W2 a j none,
    Cert.LibCastForms.bcast_1b_ab_apply _ bcast_S1x64_S16384x64_0_1 a j,
    Cert.LibCastForms.bcast_row b2 bcast_S64_S1x64_1 (0 : Fin 1) j]
  simp only [hiddenLayer_apply x hx T W1 b1]

end Layers

/-- THE REFERENCE'S RESULT is the specification's. -/
theorem term_eq_out (x : IVec S16384x2048 32) (T : FVec Ideal S4x2 .f32) (W1 : FVec Ideal S4096x1024 .f32)
    (b1 : FVec Ideal S1024 .f32) (W2 : FVec Ideal S1024x64 .f32) (b2 : FVec Ideal S64 .f32)
    (hx : Cert.TableMlp.InRange x) :
    RefTerm.term (F := Ideal) x T W1 b1 W2 b2 = Cert.TableMlp.out x T W1 b1 W2 b2 := by
  funext j
  obtain ⟨a, q, rfl⟩ : ∃ (a : Fin 16384) (q : Fin 64), j = ix2 a q := ⟨j 0, j 1, eq_ix2 j⟩
  rw [term_apply x hx T W1 b1 W2 b2 a q]
  rfl

end Cert.ReferenceIdeal.RefValue

end
-- ==== Proof.lean ====
/- The proof of `Cert.Claim` (proofs.«140908_g53369263620405_cont_9to1c4b_809_13_alg».proof.Defs).

   The kernel computes `out = relu (table[x] · W1 + b1) · W2 + b2` without forming the embedded matrix `table[x]`: each
   index word `v` in 0..3 is turned into the node `v - 3/2`, and the table's two columns are the values at the four nodes
   of two cubics whose coefficients `A = (V / 48) · table` the host computes once (V / 48 inverts the Vandermonde matrix
   of the nodes); the coefficients are mixed into the even and odd rows of W1 ahead of time, so that the hidden layer is
   three matrix products of the node powers with the premixed weights plus a bias row carrying the constant terms. The
   reference looks the table up and multiplies. Over the extended reals, for finite float arguments and index words in
   0..3 (the precondition), both results are ONE function of the arguments, `Cert.TableMlp.out` (Proof/Spec.lean):

   * Proof/KernelBlock.lean — what one grid point computes, entry by entry; Proof/KernelArray.lean — the 32 row blocks
     tile the result, which is therefore `kernOut` of the arrays the region is launched on; Proof/KernelHost.lean,
     Proof/KernelHostRead.lean — those arrays as terms of the arguments, read at coordinates;
   * Proof/Interp.lean — the interpolation identity on the extended reals (finite entries), Proof/Bridge.lean — so
     `kernOut` of the host terms is the specification; Proof/PreDecode.lean — the precondition says the float arguments
     are finite and the words lie in 0..3; Proof/KernelValue.lean — the kernel's run, result at the specification;
   * Proof/RefTerm.lean, Proof/RefRun.lean — the reference's run, result at the composition of its operations;
     Proof/RefValue.lean — that composition is the specification when the words lie in 0..3.

   The three frames are the two kernels' runs with the result dropped and the reference's run with the result dropped;
   the idealization rewrote nothing, so `preserves` is trivial. -/
import proofs.«140908_g53369263620405_cont_9to1c4b_809_13_alg».proof.Defs
import proofs.«140908_g53369263620405_cont_9to1c4b_809_13_alg».proof.Proof.Gen.Kernel
import proofs.«140908_g53369263620405_cont_9to1c4b_809_13_alg».proof.Proof.Gen.Kernel.Skeleton
import proofs.«140908_g53369263620405_cont_9to1c4b_809_13_alg».proof.Proof.Gen.Kernel.Launch
import proofs.«140908_g53369263620405_cont_9to1c4b_809_13_alg».proof.Proof.Gen.Kernel.Points
import proofs.«140908_g53369263620405_cont_9to1c4b_809_13_alg».proof.Proof.Gen.Kernel.Frame
import proofs.«140908_g53369263620405_cont_9to1c4b_809_13_alg».proof.Proof.Gen.KernelIdeal
import proofs.«140908_g53369263620405_cont_9to1c4b_809_13_alg».proof.Proof.Gen.KernelIdeal.Skeleton
import proofs.«140908_g53369263620405_cont_9to1c4b_809_13_alg».proof.Proof.Gen.KernelIdeal.Launch
import proofs.«140908_g53369263620405_cont_9to1c4b_809_13_alg».proof.Proof.Gen.KernelIdeal.Points
import proofs.«140908_g53369263620405_cont_9to1c4b_809_13_alg».proof.Proof.Gen.KernelIdeal.Frame
import proofs.«140908_g53369263620405_cont_9to1c4b_809_13_alg».proof.Proof.Gen.KernelIdeal.Value
import proofs.«140908_g53369263620405_cont_9to1c4b_809_13_alg».proof.Proof.Gen.ReferenceIdeal
import proofs.«140908_g53369263620405_cont_9to1c4b_809_13_alg».proof.Proof.Gen.Pre_finite_inputs
import proofs.«140908_g53369263620405_cont_9to1c4b_809_13_alg».proof.Proof.KernelValue
import proofs.«140908_g53369263620405_cont_9to1c4b_809_13_alg».proof.Proof.RefRun
import proofs.«140908_g53369263620405_cont_9to1c4b_809_13_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end at the specification of the (agreeing) arguments. -/
theorem algebraic : Cert.algebraic_KernelIdeal_ReferenceIdeal := by
  intro m ρ m' ρ' hpre hagree
  refine ⟨_, Cert.KernelIdeal.KernelValue.run_out m ρ hpre, ?_⟩
  refine (θ_run Cert.ReferenceIdeal.defs _ _).mono (fun r h c => ?_) (Cert.ReferenceIdeal.RefRun.run (F := Ideal) m' ρ')
  obtain ⟨-, -, -, -, -, hx⟩ := Cert.Pre_finite_inputs.Decode.of_fn _ _ _ _ _ _ (hpre c)
  refine ⟨(h c).1.trans ?_, (h c).2⟩
  rw [(hagree c).1, (hagree c).2.1, (hagree c).2.2.1, (hagree c).2.2.2.1, (hagree c).2.2.2.2.1, (hagree c).2.2.2.2.2]
  exact Cert.ReferenceIdeal.RefValue.term_eq_out _ _ _ _ _ _ hx

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
